-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32 : Shape := ⟨4, ![8, 32, 32, 32]⟩
abbrev S1x1x1x288x64 : Shape := ⟨5, ![1, 1, 1, 288, 64]⟩
abbrev S64 : Shape := ⟨1, ![64]⟩
abbrev S_ : Shape := ⟨0, ![]⟩

class Facts : Prop where
  bcast_S_S8x32x32x32 : S_.BroadcastsInDim S8x32x32x32 (![] : Fin 0 → Fin S8x32x32x32.rank)
  reducesTo_S8x32x32x32_S_d0_1_2_3 : S8x32x32x32.ReducesTo [0, 1, 2, 3] S_
  h_S_ : 0 < S_.numel
  bcast_S_S1x1x1x288x64 : S_.BroadcastsInDim S1x1x1x288x64 (![] : Fin 0 → Fin S1x1x1x288x64.rank)
  reducesTo_S1x1x1x288x64_S_d0_1_2_3_4 : S1x1x1x288x64.ReducesTo [0, 1, 2, 3, 4] S_
  bcast_S_S64 : S_.BroadcastsInDim S64 (![] : Fin 0 → Fin S64.rank)
  reducesTo_S64_S_d0 : S64.ReducesTo [0] S_

variable [Facts]

def fn {F : FTy → Type} [FloatOps F] (main_arg0 : FVec F S8x32x32x32 .f32) (main_arg1 : FVec F S1x1x1x288x64 .f32) (main_arg2 : FVec F S64 .f32) : IVec S_ 1 :=
  let main_v0 : FVec F S8x32x32x32 .f32 := Host.absf main_arg0
  let main_cst : FVec F S_ .f32 := constant S_ .f32 0x7F800000#32
  let main_v1 : FVec F S8x32x32x32 .f32 := broadcastInDim S8x32x32x32 ![] bcast_S_S8x32x32x32 main_cst
  let main_v2 : IVec S8x32x32x32 1 := cmpf .olt main_v0 main_v1
  let main_c : IVec S_ 1 := constantI S_ 1 1#1
  let main_v3 : IVec S_ 1 := (fun x v => Host.reduce IntOp.andi x v reducesTo_S8x32x32x32_S_d0_1_2_3 h_S_) main_v2 main_c
  let main_v4 : FVec F S1x1x1x288x64 .f32 := Host.absf main_arg1
  let main_cst_0 : FVec F S_ .f32 := constant S_ .f32 0x7F800000#32
  let main_v5 : FVec F S1x1x1x288x64 .f32 := broadcastInDim S1x1x1x288x64 ![] bcast_S_S1x1x1x288x64 main_cst_0
  let main_v6 : IVec S1x1x1x288x64 1 := cmpf .olt main_v4 main_v5
  let main_c_1 : IVec S_ 1 := constantI S_ 1 1#1
  let main_v7 : IVec S_ 1 := (fun x v => Host.reduce IntOp.andi x v reducesTo_S1x1x1x288x64_S_d0_1_2_3_4 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8x32x32x32 : Shape := ⟨4, ![8, 32, 32, 32]⟩
abbrev S1x1x1x288x64 : Shape := ⟨5, ![1, 1, 1, 288, 64]⟩
abbrev S64 : Shape := ⟨1, ![64]⟩
abbrev S9x32x64 : Shape := ⟨3, ![9, 32, 64]⟩
abbrev S8x30x30x64 : Shape := ⟨4, ![8, 30, 30, 64]⟩
abbrev S1x32x32x32 : Shape := ⟨4, ![1, 32, 32, 32]⟩
abbrev S1x10x30x64 : Shape := ⟨4, ![1, 10, 30, 64]⟩
abbrev S10x30x64 : Shape := ⟨3, ![10, 30, 64]⟩
abbrev S1x10x30x32 : Shape := ⟨4, ![1, 10, 30, 32]⟩
abbrev S10x30x32 : Shape := ⟨3, ![10, 30, 32]⟩
abbrev S1x32x64 : Shape := ⟨3, ![1, 32, 64]⟩
abbrev S32x64 : Shape := ⟨2, ![32, 64]⟩
abbrev S10x30x32x1 : Shape := ⟨4, ![10, 30, 32, 1]⟩
abbrev S1x1x32x64 : Shape := ⟨4, ![1, 1, 32, 64]⟩
abbrev S10x30x32x64 : Shape := ⟨4, ![10, 30, 32, 64]⟩
abbrev S1x1x64 : Shape := ⟨3, ![1, 1, 64]⟩

abbrev nBuf : Space → Nat
  | .hbm => 5
  | .vmem => 6
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S9x32x64, .f32⟩
  | .hbm, ⟨4, _⟩ => ⟨S8x30x30x64, .f32⟩
  | .local _ .vmem, ⟨0, _⟩ => ⟨S1x32x32x32, .f32⟩
  | .local _ .vmem, ⟨1, _⟩ => ⟨S1x32x32x32, .f32⟩
  | .local _ .vmem, ⟨2, _⟩ => ⟨S9x32x64, .f32⟩
  | .local _ .vmem, ⟨3, _⟩ => ⟨S64, .f32⟩
  | .local _ .vmem, ⟨4, _⟩ => ⟨S1x10x30x64, .f32⟩
  | .local _ .vmem, ⟨5, _⟩ => ⟨S1x10x30x64, .f32⟩
  | _, _ => ⟨S8x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 3], ![false, false]⟩

def k0_off1 (i : grid0.Coords) (c0_i32 : BitVec 32) : Fin 4 → Nat :=
  let c0_1 : Index := 0#32
  let arg1 : BitVec 32 := BitVec.ofNat 32 (i 1).val
  let c10_i32 : BitVec 32 := 10#32
  let v0 : BitVec 32 := Scalar.muli arg1 c10_i32
  let v4 : BitVec 32 := Scalar.addi v0 c0_i32
  let v5 : Index := Scalar.indexCast v4
  let c0_2 : Index := 0#32
  let c0_3 : Index := 0#32
  ![0, v5.toNat, 0, 0]
def k0_off2 (i : grid0.Coords) (c0_i32_9 : BitVec 32) : Fin 4 → Nat :=
  let c0_10 : Index := 0#32
  let arg1 : BitVec 32 := BitVec.ofNat 32 (i 1).val
  let c10_i32 : BitVec 32 := 10#32
  let v0 : BitVec 32 := Scalar.muli arg1 c10_i32
  let v19 : BitVec 32 := Scalar.addi v0 c0_i32_9
  let v20 : Index := Scalar.indexCast v19
  let c1 : Index := 1#32
  let c0_11 : Index := 0#32
  ![0, v20.toNat, 1, 0]
def k0_off3 (i : grid0.Coords) (c0_i32_17 : BitVec 32) : Fin 4 → Nat :=
  let c0_18 : Index := 0#32
  let arg1 : BitVec 32 := BitVec.ofNat 32 (i 1).val
  let c10_i32 : BitVec 32 := 10#32
  let v0 : BitVec 32 := Scalar.muli arg1 c10_i32
  let v34 : BitVec 32 := Scalar.addi v0 c0_i32_17
  let v35 : Index := Scalar.indexCast v34
  let c2 : Index := 2#32
  let c0_19 : Index := 0#32
  ![0, v35.toNat, 2, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x32x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x10x30x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x1x1x288x64_S9x32x64 : S1x1x1x288x64.ShapeCasts S9x32x64
  inb_S64_S64_0 : ∀ a, (![0] : Fin 1 → Nat) a + S64.size a ≤ S64.size a
  h_S64 : 0 < S64.numel
  h_S1x10x30x32 : 0 < S1x10x30x32.numel
  shapeCasts_S1x10x30x32_S10x30x32 : S1x10x30x32.ShapeCasts S10x30x32
  inb_S9x32x64_S1x32x64_0_0_0 : ∀ a, (![0, 0, 0] : Fin 3 → Nat) a + S1x32x64.size a ≤ S9x32x64.size a
  h_S1x32x64 : 0 < S1x32x64.numel
  shapeCasts_S1x32x64_S32x64 : S1x32x64.ShapeCasts S32x64
  shapeCasts_S10x30x32_S10x30x32x1 : S10x30x32.ShapeCasts S10x30x32x1
  shapeCasts_S32x64_S1x1x32x64 : S32x64.ShapeCasts S1x1x32x64
  broadcasts_S10x30x32x1_S10x30x32x64 : S10x30x32x1.Broadcasts S10x30x32x64
  broadcasts_S1x1x32x64_S10x30x32x64 : S1x1x32x64.Broadcasts S10x30x32x64
  reduces_S10x30x32x64_S10x30x64 : S10x30x32x64.Reduces [2] S10x30x64
  inb_S9x32x64_S1x32x64_1_0_0 : ∀ a, (![1, 0, 0] : Fin 3 → Nat) a + S1x32x64.size a ≤ S9x32x64.size a
  inb_S9x32x64_S1x32x64_2_0_0 : ∀ a, (![2, 0, 0] : Fin 3 → Nat) a + S1x32x64.size a ≤ S9x32x64.size a
  inb_S9x32x64_S1x32x64_3_0_0 : ∀ a, (![3, 0, 0] : Fin 3 → Nat) a + S1x32x64.size a ≤ S9x32x64.size a
  inb_S9x32x64_S1x32x64_4_0_0 : ∀ a, (![4, 0, 0] : Fin 3 → Nat) a + S1x32x64.size a ≤ S9x32x64.size a
  inb_S9x32x64_S1x32x64_5_0_0 : ∀ a, (![5, 0, 0] : Fin 3 → Nat) a + S1x32x64.size a ≤ S9x32x64.size a
  inb_S9x32x64_S1x32x64_6_0_0 : ∀ a, (![6, 0, 0] : Fin 3 → Nat) a + S1x32x64.size a ≤ S9x32x64.size a
  inb_S9x32x64_S1x32x64_7_0_0 : ∀ a, (![7, 0, 0] : Fin 3 → Nat) a + S1x32x64.size a ≤ S9x32x64.size a
  inb_S9x32x64_S1x32x64_8_0_0 : ∀ a, (![8, 0, 0] : Fin 3 → Nat) a + S1x32x64.size a ≤ S9x32x64.size a
  shapeCasts_S64_S1x1x64 : S64.ShapeCasts S1x1x64
  broadcasts_S1x1x64_S10x30x64 : S1x1x64.Broadcasts S10x30x64
  inb_S1x10x30x64_S1x10x30x64_0_0_0_0 : ∀ a, (![0, 0, 0, 0] : Fin 4 → Nat) a + S1x10x30x64.size a ≤ S1x10x30x64.size a
  h_S1x10x30x64 : 0 < S1x10x30x64.numel
  shapeCasts_S1x10x30x64_S10x30x64 : S1x10x30x64.ShapeCasts S10x30x64
  shapeCasts_S10x30x64_S1x10x30x64 : S10x30x64.ShapeCasts S1x10x30x64
  hrank0 : 0 < grid0.rank
  k0_off1_inb : ∀ i : grid0.Coords, ∀ (r : Fin 3), ∀ a, (k0_off1 i (BitVec.ofNat 32 r.val)) a + S1x10x30x32.size a ≤ S1x32x32x32.size a
  k0_off2_inb : ∀ i : grid0.Coords, ∀ (r : Fin 3), ∀ a, (k0_off2 i (BitVec.ofNat 32 r.val)) a + S1x10x30x32.size a ≤ S1x32x32x32.size a
  k0_off3_inb : ∀ i : grid0.Coords, ∀ (r : Fin 3), ∀ a, (k0_off3 i (BitVec.ofNat 32 r.val)) a + S1x10x30x32.size a ≤ S1x32x32x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32x32.size a ≤ S8x32x32x32.size a
  hwx0_0 : ∀ i : grid0.Coords, EltTy.bits .f32 = 32 ∨ (Rect.block (s := S8x32x32x32) S1x32x32x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32x64.size a ≤ S9x32x64.size a
  hwx0_1 : ∀ i : grid0.Coords, EltTy.bits .f32 = 32 ∨ (Rect.block (s := S9x32x64) S9x32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x10x30x64.size a ≤ S8x30x30x64.size a
  hwx0_3 : ∀ i : grid0.Coords, EltTy.bits .f32 = 32 ∨ (Rect.block (s := S8x30x30x64) S1x10x30x64.size (cc0_transform_3 i) (hinb0_3 i)).WholeWords (EltTy.packing .f32)

variable [Facts₀]

abbrev win0_0 : Pipeline.Window sig grid0 :=
  Pipeline.Window.ofSpec (Memref.whole main_arg0) S1x32x32x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S9x32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x10x30x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x32x32 : Shape := ⟨4, ![8, 32, 32, 32]⟩
abbrev S1x1x1x288x64 : Shape := ⟨5, ![1, 1, 1, 288, 64]⟩
abbrev S64 : Shape := ⟨1, ![64]⟩
abbrev S8x30x30x32 : Shape := ⟨4, ![8, 30, 30, 32]⟩
abbrev S8x30x30x1x32 : Shape := ⟨5, ![8, 30, 30, 1, 32]⟩
abbrev S8x30x30x9x32 : Shape := ⟨5, ![8, 30, 30, 9, 32]⟩
abbrev S8x30x30x288 : Shape := ⟨4, ![8, 30, 30, 288]⟩
abbrev S8x30x30x288x1 : Shape := ⟨5, ![8, 30, 30, 288, 1]⟩
abbrev S8x30x30x288x64 : Shape := ⟨5, ![8, 30, 30, 288, 64]⟩
abbrev S_ : Shape := ⟨0, ![]⟩
abbrev S8x30x30x64 : Shape := ⟨4, ![8, 30, 30, 64]⟩
abbrev S1x1x1x64 : Shape := ⟨4, ![1, 1, 1, 64]⟩

abbrev nBuf : Space → Nat
  | .hbm => 35
  | .vmem => 0
  | .smem => 0
  | _ => 0

abbrev bufTy : (tb : Table) → Fin (tcTables nBuf tb) → BufTy
  | .hbm, ⟨0, _⟩ => ⟨S8x32x32x32, .f32⟩
  | .hbm, ⟨1, _⟩ => ⟨S1x1x1x288x64, .f32⟩
  | .hbm, ⟨2, _⟩ => ⟨S64, .f32⟩
  | .hbm, ⟨3, _⟩ => ⟨S8x30x30x32, .f32⟩
  | .hbm, ⟨4, _⟩ => ⟨S8x30x30x32, .f32⟩
  | .hbm, ⟨5, _⟩ => ⟨S8x30x30x32, .f32⟩
  | .hbm, ⟨6, _⟩ => ⟨S8x30x30x32, .f32⟩
  | .hbm, ⟨7, _⟩ => ⟨S8x30x30x32, .f32⟩
  | .hbm, ⟨8, _⟩ => ⟨S8x30x30x32, .f32⟩
  | .hbm, ⟨9, _⟩ => ⟨S8x30x30x32, .f32⟩
  | .hbm, ⟨10, _⟩ => ⟨S8x30x30x32, .f32⟩
  | .hbm, ⟨11, _⟩ => ⟨S8x30x30x32, .f32⟩
  | .hbm, ⟨12, _⟩ => ⟨S8x30x30x1x32, .f32⟩
  | .hbm, ⟨13, _⟩ => ⟨S8x30x30x1x32, .f32⟩
  | .hbm, ⟨14, _⟩ => ⟨S8x30x30x1x32, .f32⟩
  | .hbm, ⟨15, _⟩ => ⟨S8x30x30x1x32, .f32⟩
  | .hbm, ⟨16, _⟩ => ⟨S8x30x30x1x32, .f32⟩
  | .hbm, ⟨17, _⟩ => ⟨S8x30x30x1x32, .f32⟩
  | .hbm, ⟨18, _⟩ => ⟨S8x30x30x1x32, .f32⟩
  | .hbm, ⟨19, _⟩ => ⟨S8x30x30x1x32, .f32⟩
  | .hbm, ⟨20, _⟩ => ⟨S8x30x30x1x32, .f32⟩
  | .hbm, ⟨21, _⟩ => ⟨S8x30x30x9x32, .f32⟩
  | .hbm, ⟨22, _⟩ => ⟨S8x30x30x288, .f32⟩
  | .hbm, ⟨23, _⟩ => ⟨S8x30x30x288x1, .f32⟩
  | .hbm, ⟨24, _⟩ => ⟨S8x30x30x288x64, .f32⟩
  | .hbm, ⟨25, _⟩ => ⟨S8x30x30x288x64, .f32⟩
  | .hbm, ⟨26, _⟩ => ⟨S8x30x30x288x64, .f32⟩
  | .hbm, ⟨27, _⟩ => ⟨S_, .f32⟩
  | .hbm, ⟨28, _⟩ => ⟨S8x30x30x64, .f32⟩
  | .hbm, ⟨29, _⟩ => ⟨S_, .f32⟩
  | .hbm, ⟨30, _⟩ => ⟨S8x30x30x64, .f32⟩
  | .hbm, ⟨31, _⟩ => ⟨S8x30x30x64, .f32⟩
  | .hbm, ⟨32, _⟩ => ⟨S1x1x1x64, .f32⟩
  | .hbm, ⟨33, _⟩ => ⟨S8x30x30x64, .f32⟩
  | .hbm, ⟨34, _⟩ => ⟨S8x30x30x64, .f32⟩
  | _, _ => ⟨S8x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst : Ref sig .tc := ⟨.hbm, 27, rfl⟩
abbrev main_v24 : Ref sig .tc := ⟨.hbm, 28, rfl⟩
abbrev main_cst_0 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]

class Facts₀ : Prop where
  slices_S8x32x32x32_S8x30x30x32_0_0_0_0 : S8x32x32x32.Slices ![0, 0, 0, 0] S8x30x30x32
  slices_S8x32x32x32_S8x30x30x32_0_0_1_0 : S8x32x32x32.Slices ![0, 0, 1, 0] S8x30x30x32
  slices_S8x32x32x32_S8x30x30x32_0_0_2_0 : S8x32x32x32.Slices ![0, 0, 2, 0] S8x30x30x32
  slices_S8x32x32x32_S8x30x30x32_0_1_0_0 : S8x32x32x32.Slices ![0, 1, 0, 0] S8x30x30x32
  slices_S8x32x32x32_S8x30x30x32_0_1_1_0 : S8x32x32x32.Slices ![0, 1, 1, 0] S8x30x30x32
  slices_S8x32x32x32_S8x30x30x32_0_1_2_0 : S8x32x32x32.Slices ![0, 1, 2, 0] S8x30x30x32
  slices_S8x32x32x32_S8x30x30x32_0_2_0_0 : S8x32x32x32.Slices ![0, 2, 0, 0] S8x30x30x32
  slices_S8x32x32x32_S8x30x30x32_0_2_1_0 : S8x32x32x32.Slices ![0, 2, 1, 0] S8x30x30x32
  slices_S8x32x32x32_S8x30x30x32_0_2_2_0 : S8x32x32x32.Slices ![0, 2, 2, 0] S8x30x30x32
  bcast_S8x30x30x32_S8x30x30x1x32_0_1_2_4 : S8x30x30x32.BroadcastsInDim S8x30x30x1x32 (![0, 1, 2, 4] : Fin 4 → Fin S8x30x30x1x32.rank)
  concatenates_S8x30x30x1x32_S8x30x30x1x32_S8x30x30x1x32_S8x30x30x1x32_S8x30x30x1x32_S8x30x30x1x32_S8x30x30x1x32_S8x30x30x1x32_S8x30x30x1x32_S8x30x30x9x32_d3 : Shape.Concatenates [S8x30x30x1x32, S8x30x30x1x32, S8x30x30x1x32, S8x30x30x1x32, S8x30x30x1x32, S8x30x30x1x32, S8x30x30x1x32, S8x30x30x1x32, S8x30x30x1x32] S8x30x30x9x32 3
  shapeCasts_S8x30x30x9x32_S8x30x30x288 : S8x30x30x9x32.ShapeCasts S8x30x30x288
  bcast_S8x30x30x288_S8x30x30x288x1_0_1_2_3 : S8x30x30x288.BroadcastsInDim S8x30x30x288x1 (![0, 1, 2, 3] : Fin 4 → Fin S8x30x30x288x1.rank)
  bcast_S8x30x30x288x1_S8x30x30x288x64_0_1_2_3_4 : S8x30x30x288x1.BroadcastsInDim S8x30x30x288x64 (![0, 1, 2, 3, 4] : Fin 5 → Fin S8x30x30x288x64.rank)
  bcast_S1x1x1x288x64_S8x30x30x288x64_0_1_2_3_4 : S1x1x1x288x64.BroadcastsInDim S8x30x30x288x64 (![0, 1, 2, 3, 4] : Fin 5 → Fin S8x30x30x288x64.rank)
  reducesTo_S8x30x30x288x64_S8x30x30x64_d3 : S8x30x30x288x64.ReducesTo [3] S8x30x30x64
  h_S_ : 0 < S_.numel
  bcast_S64_S1x1x1x64_3 : S64.BroadcastsInDim S1x1x1x64 (![3] : Fin 1 → Fin S1x1x1x64.rank)
  bcast_S1x1x1x64_S8x30x30x64_0_1_2_3 : S1x1x1x64.BroadcastsInDim S8x30x30x64 (![0, 1, 2, 3] : Fin 4 → Fin S8x30x30x64.rank)

variable [Facts₀]

class Facts : Prop extends Facts₀ where

variable [Facts]
-- ==== Proof.Spec.lean ====
/-
  The tropical 3×3 convolution as one function of the argument arrays, over the extended reals.

  For an image x[b, ·, ·, ·] (32 × 32 positions, 32 channels), weights w[k, f] with k = 32·p + c running over the nine
  window offsets p = 3·di + dj (di, dj ∈ {0, 1, 2}) and the 32 channels c, and a bias, the result at (b, h, v, f) is

      (sup over (p, c) of x[b, h + di, v + dj, c] + w[32·p + c, f])
    − (inf over (p, c) of x[b, h + di, v + dj, c] + w[32·p + c, f])  +  bias[f].

  A supremum (infimum) over the 288 taps does not depend on how the taps are grouped or ordered: taken nine channel
  rows at a time and folded into a running maximum from −∞ (minimum from +∞), or taken over the flat index k in one
  fold, it is the same extended real. These are the only laws the two programs' equality needs, and they hold at
  the infinities too, so no finiteness of the inputs is used.
-/
import Idealize.ShloMosaic.PureOps.Ideal
import Idealize.ShloMosaic.Lib.ValueIdx

noncomputable section

namespace Cert.Trop

open Idealize.ShloMosaic Idealize.ShloMosaic.ValueIdx

/-! ## The two infinities as words -/

/-- The word of −∞ reads the bottom of the extended reals. -/
theorem negInf : Ideal.ofBits .f32 0xFF800000#32 = (⊥ : EReal) := by simp [Ideal.ofBits, Ideal.ieee]

/-- The word of +∞ reads the top. -/
theorem posInf : Ideal.ofBits .f32 0x7F800000#32 = (⊤ : EReal) := by simp [Ideal.ofBits, Ideal.ieee]

/-! ## A fold of max from the bottom is a supremum, a fold of min from the top an infimum -/

theorem fold_max_bot {ι : Type} [Fintype ι] (g : ι → EReal) : Finset.univ.fold max ⊥ g = ⨆ i, g i :=
  le_antisymm ((Finset.fold_max_le _).2 ⟨bot_le, fun i _ => le_iSup g i⟩)
    (iSup_le fun i => (Finset.le_fold_max _).2 (Or.inr ⟨i, Finset.mem_univ i, le_rfl⟩))

theorem fold_min_top {ι : Type} [Fintype ι] (g : ι → EReal) : Finset.univ.fold min ⊤ g = ⨅ i, g i :=
  le_antisymm (le_iInf fun i => (Finset.fold_min_le _).2 (Or.inr ⟨i, Finset.mem_univ i, le_rfl⟩))
    ((Finset.le_fold_min _).2 ⟨le_top, fun i _ => iInf_le g i⟩)

/-! ## Nine values folded one after the other into a running maximum (minimum) -/

/-- A running maximum started at the bottom and fed nine values is their supremum. -/
theorem running_max (A : Fin 9 → EReal) :
    max (max (max (max (max (max (max (max (max ⊥ (A 0)) (A 1)) (A 2)) (A 3)) (A 4)) (A 5)) (A 6)) (A 7)) (A 8) = ⨆ p, A p := by
  apply le_antisymm
  · have h := le_iSup A
    exact max_le (max_le (max_le (max_le (max_le (max_le (max_le (max_le (max_le bot_le (h 0)) (h 1)) (h 2)) (h 3)) (h 4)) (h 5)) (h 6)) (h 7)) (h 8)
  · refine iSup_le fun p => ?_
    match p with
    | ⟨0, _⟩ => exact le_max_of_le_left (le_max_of_le_left (le_max_of_le_left (le_max_of_le_left (le_max_of_le_left (le_max_of_le_left (le_max_of_le_left (le_max_of_le_left (le_max_right _ _))))))))
    | ⟨1, _⟩ => exact le_max_of_le_left (le_max_of_le_left (le_max_of_le_left (le_max_of_le_left (le_max_of_le_left (le_max_of_le_left (le_max_of_le_left (le_max_right _ _)))))))
    | ⟨2, _⟩ => exact le_max_of_le_left (le_max_of_le_left (le_max_of_le_left (le_max_of_le_left (le_max_of_le_left (le_max_of_le_left (le_max_right _ _))))))
    | ⟨3, _⟩ => exact le_max_of_le_left (le_max_of_le_left (le_max_of_le_left (le_max_of_le_left (le_max_of_le_left (le_max_right _ _)))))
    | ⟨4, _⟩ => exact le_max_of_le_left (le_max_of_le_left (le_max_of_le_left (le_max_of_le_left (le_max_right _ _))))
    | ⟨5, _⟩ => exact le_max_of_le_left (le_max_of_le_left (le_max_of_le_left (le_max_right _ _)))
    | ⟨6, _⟩ => exact le_max_of_le_left (le_max_of_le_left (le_max_right _ _))
    | ⟨7, _⟩ => exact le_max_of_le_left (le_max_right _ _)
    | ⟨8, _⟩ => exact le_max_right _ _

/-- A running minimum started at the top and fed nine values is their infimum. -/
theorem running_min (A : Fin 9 → EReal) :
    min (min (min (min (min (min (min (min (min ⊤ (A 0)) (A 1)) (A 2)) (A 3)) (A 4)) (A 5)) (A 6)) (A 7)) (A 8) = ⨅ p, A p := by
  apply le_antisymm
  · refine le_iInf fun p => ?_
    match p with
    | ⟨0, _⟩ => exact min_le_of_left_le (min_le_of_left_le (min_le_of_left_le (min_le_of_left_le (min_le_of_left_le (min_le_of_left_le (min_le_of_left_le (min_le_of_left_le (min_le_right _ _))))))))
    | ⟨1, _⟩ => exact min_le_of_left_le (min_le_of_left_le (min_le_of_left_le (min_le_of_left_le (min_le_of_left_le (min_le_of_left_le (min_le_of_left_le (min_le_right _ _)))))))
    | ⟨2, _⟩ => exact min_le_of_left_le (min_le_of_left_le (min_le_of_left_le (min_le_of_left_le (min_le_of_left_le (min_le_of_left_le (min_le_right _ _))))))
    | ⟨3, _⟩ => exact min_le_of_left_le (min_le_of_left_le (min_le_of_left_le (min_le_of_left_le (min_le_of_left_le (min_le_right _ _)))))
    | ⟨4, _⟩ => exact min_le_of_left_le (min_le_of_left_le (min_le_of_left_le (min_le_of_left_le (min_le_right _ _))))
    | ⟨5, _⟩ => exact min_le_of_left_le (min_le_of_left_le (min_le_of_left_le (min_le_right _ _)))
    | ⟨6, _⟩ => exact min_le_of_left_le (min_le_of_left_le (min_le_right _ _))
    | ⟨7, _⟩ => exact min_le_of_left_le (min_le_right _ _)
    | ⟨8, _⟩ => exact min_le_right _ _
  · have h := iInf_le A
    exact le_min (le_min (le_min (le_min (le_min (le_min (le_min (le_min (le_min le_top (h 0)) (h 1)) (h 2)) (h 3)) (h 4)) (h 5)) (h 6)) (h 7)) (h 8)

/-! ## The 288 taps in one flat index, k = 32·p + c -/

/-- The supremum over the flat tap index is the supremum over (offset, channel). -/
theorem iSup_flat (T : Fin 9 → Fin 32 → EReal) (T' : Fin 288 → EReal)
    (h : ∀ k : Fin 288, T' k = T ⟨k.val / 32, by have := k.isLt; omega⟩ ⟨k.val % 32, Nat.mod_lt _ (by decide)⟩) :
    ⨆ k, T' k = ⨆ p, ⨆ c, T p c := by
  apply le_antisymm
  · exact iSup_le fun k => (h k).le.trans (le_iSup₂ (f := fun p c => T p c) _ _)
  · refine iSup₂_le fun p c => ?_
    have hp := p.isLt
    have hc := c.isLt
    refine le_iSup_of_le (⟨32 * p.val + c.val, by omega⟩ : Fin 288) ?_
    rw [h]
    refine le_of_eq ?_
    congr 1
    · exact Fin.ext (by show p.val = (32 * p.val + c.val) / 32; omega)
    · exact Fin.ext (by show c.val = (32 * p.val + c.val) % 32; omega)

/-- The infimum likewise. -/
theorem iInf_flat (T : Fin 9 → Fin 32 → EReal) (T' : Fin 288 → EReal)
    (h : ∀ k : Fin 288, T' k = T ⟨k.val / 32, by have := k.isLt; omega⟩ ⟨k.val % 32, Nat.mod_lt _ (by decide)⟩) :
    ⨅ k, T' k = ⨅ p, ⨅ c, T p c := by
  apply le_antisymm
  · refine le_iInf₂ fun p c => ?_
    have hp := p.isLt
    have hc := c.isLt
    refine iInf_le_of_le (⟨32 * p.val + c.val, by omega⟩ : Fin 288) ?_
    rw [h]
    refine le_of_eq ?_
    congr 1
    · exact Fin.ext (by show (32 * p.val + c.val) / 32 = p.val; omega)
    · exact Fin.ext (by show (32 * p.val + c.val) % 32 = c.val; omega)
  · exact le_iInf fun k => (iInf₂_le (f := fun p c => T p c) _ _).trans (h k).ge

/-! ## The specification -/

/-- Tap (p, c) of the window at output position (b, h, v) for filter f: the image at the shifted position, channel c,
    plus the weight of flat tap index 32·p + c. -/
def tap (x : (⟨4, ![8, 32, 32, 32]⟩ : Shape).Idx → EReal) (w : (⟨5, ![1, 1, 1, 288, 64]⟩ : Shape).Idx → EReal)
    (b : Fin 8) (h v : Fin 30) (f : Fin 64) (p : Fin 9) (c : Fin 32) : EReal :=
  x (ix4 b (⟨h.val + p.val / 3, by have := h.isLt; have := p.isLt; omega⟩ : Fin 32)
      (⟨v.val + p.val % 3, by have := v.isLt; omega⟩ : Fin 32) c)
    + w (ix5 (0 : Fin 1) (0 : Fin 1) (0 : Fin 1) (⟨32 * p.val + c.val, by have := p.isLt; have := c.isLt; omega⟩ : Fin 288) f)

/-- The result array: at each output index, the spread of the window's taps plus the filter's bias. -/
def G (x : (⟨4, ![8, 32, 32, 32]⟩ : Shape).Idx → EReal) (w : (⟨5, ![1, 1, 1, 288, 64]⟩ : Shape).Idx → EReal)
    (bias : (⟨1, ![64]⟩ : Shape).Idx → EReal) : (⟨4, ![8, 30, 30, 64]⟩ : Shape).Idx → EReal := fun i =>
  (⨆ p, ⨆ c, tap x w ⟨(i 0).val, (i 0).isLt⟩ ⟨(i 1).val, (i 1).isLt⟩ ⟨(i 2).val, (i 2).isLt⟩ ⟨(i 3).val, (i 3).isLt⟩ p c)
    - (⨅ p, ⨅ c, tap x w ⟨(i 0).val, (i 0).isLt⟩ ⟨(i 1).val, (i 1).isLt⟩ ⟨(i 2).val, (i 2).isLt⟩ ⟨(i 3).val, (i 3).isLt⟩ p c)
    + bias (ix1 (⟨(i 3).val, (i 3).isLt⟩ : Fin 64))

end Cert.Trop

end
-- ==== Proof.Payload.lean ====
/-
  The kernel body's arithmetic, read at one output position, over the extended reals.

  One window offset contributes a slab s[r, q, c, f] = xs[r, q, c] + ws[c, f] (a 10 × 30 tile of shifted image rows, one
  32 × 64 page of the weights), reduced over the channel c to its supremum and its infimum. The body folds the nine
  offsets' suprema into a running maximum started at −∞ and the nine infima into a running minimum started at +∞,
  two or three offsets per stretch of the body, then subtracts and adds the bias row.
-/
import proofs.«124420_j70489003262695_2_alg».proof.Proof.Gen.KernelIdeal.Skeleton
import proofs.«124420_j70489003262695_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- One offset's supremum over the channels, at tile position (r, q) and filter f. -/
def rowSup (vx : Vec Ideal S1x10x30x32 .f32) (vw : Vec Ideal S1x32x64 .f32) (r : Fin 10) (q : Fin 30) (f : Fin 64) : EReal :=
  ⨆ c : Fin 32, (vx (ix4 (0 : Fin 1) r q c) + vw (ix3 (0 : Fin 1) c f))

/-- One offset's infimum over the channels. -/
def rowInf (vx : Vec Ideal S1x10x30x32 .f32) (vw : Vec Ideal S1x32x64 .f32) (r : Fin 10) (q : Fin 30) (f : Fin 64) : EReal :=
  ⨅ c : Fin 32, (vx (ix4 (0 : Fin 1) r q c) + vw (ix3 (0 : Fin 1) c f))

/-- The slab at (r, q, c, f): the image tile's entry (r, q, c), spread over the filters, plus the weight page's entry
    (c, f), spread over the tile. -/
theorem slab_apply (vx : Vec Ideal S1x10x30x32 .f32) (vw : Vec Ideal S1x32x64 .f32)
    (r : Fin 10) (q : Fin 30) (c : Fin 32) (f : Fin 64) :
    k0_pay1 vx vw (ix4 r q c f) = vx (ix4 (0 : Fin 1) r q c) + vw (ix3 (0 : Fin 1) c f) := by
  have e1 : broadcastTo S10x30x32x64 (shapeCast S10x30x32x1 (shapeCast S10x30x32 vx shapeCasts_S1x10x30x32_S10x30x32)
      shapeCasts_S10x30x32_S10x30x32x1) broadcasts_S10x30x32x1_S10x30x32x64 (ix4 r q c f) = vx (ix4 (0 : Fin 1) r q c) := by
    refine (broadcastTo_apply _ _ (ix4 r q c f) (ix4 r q c (0 : Fin 1)) ?_).trans ?_
    · intro a
      match a with
      | ⟨0, _⟩ => show r.val = if (10 : Nat) = 1 then 0 else r.val; rw [if_neg (by decide)]
      | ⟨1, _⟩ => show q.val = if (30 : Nat) = 1 then 0 else q.val; rw [if_neg (by decide)]
      | ⟨2, _⟩ => show c.val = if (32 : Nat) = 1 then 0 else c.val; rw [if_neg (by decide)]
      | ⟨3, _⟩ => show 0 = if (1 : Nat) = 1 then 0 else f.val; rw [if_pos rfl]
    · refine (shapeCast_apply _ _ (ix4 r q c (0 : Fin 1)) (ix3 r q c) ?_).trans ?_
      · rw [Shape.rowMajor_val_three, Shape.rowMajor_val_four]
        show (r.val * 30 + q.val) * 32 + c.val = ((r.val * 30 + q.val) * 32 + c.val) * 1 + 0
        omega
      · refine shapeCast_apply _ _ (ix3 r q c) (ix4 (0 : Fin 1) r q c) ?_
        rw [Shape.rowMajor_val_four, Shape.rowMajor_val_three]
        show ((0 * 10 + r.val) * 30 + q.val) * 32 + c.val = (r.val * 30 + q.val) * 32 + c.val
        omega
  have e2 : broadcastTo S10x30x32x64 (shapeCast S1x1x32x64 (shapeCast S32x64 vw shapeCasts_S1x32x64_S32x64)
      shapeCasts_S32x64_S1x1x32x64) broadcasts_S1x1x32x64_S10x30x32x64 (ix4 r q c f) = vw (ix3 (0 : Fin 1) c f) := by
    refine (broadcastTo_apply _ _ (ix4 r q c f) (ix4 (0 : Fin 1) (0 : Fin 1) c f) ?_).trans ?_
    · intro a
      match a with
      | ⟨0, _⟩ => show 0 = if (1 : Nat) = 1 then 0 else r.val; rw [if_pos rfl]
      | ⟨1, _⟩ => show 0 = if (1 : Nat) = 1 then 0 else q.val; rw [if_pos rfl]
      | ⟨2, _⟩ => show c.val = if (32 : Nat) = 1 then 0 else c.val; rw [if_neg (by decide)]
      | ⟨3, _⟩ => show f.val = if (64 : Nat) = 1 then 0 else f.val; rw [if_neg (by decide)]
    · refine (shapeCast_apply _ _ (ix4 (0 : Fin 1) (0 : Fin 1) c f) (ix2 c f) ?_).trans ?_
      · rw [Shape.rowMajor_val_two, Shape.rowMajor_val_four]
        show c.val * 64 + f.val = ((0 * 1 + 0) * 32 + c.val) * 64 + f.val
        omega
      · refine shapeCast_apply _ _ (ix2 c f) (ix3 (0 : Fin 1) c f) ?_
        rw [Shape.rowMajor_val_three, Shape.rowMajor_val_two]
        show (0 * 32 + c.val) * 64 + f.val = c.val * 64 + f.val
        omega
  exact congrArg₂ (fun a b : EReal => a + b) e1 e2

/-- The source index over (r, q, f) with channel c put back on the reduced axis. -/
theorem lift_ix (r : Fin 10) (q : Fin 30) (f : Fin 64) (c : Fin 32) :
    reduces_S10x30x32x64_S10x30x64.lift (ix3 r q f) c = ix4 r q c f := by
  funext a
  match a with
  | ⟨0, _⟩ => rfl
  | ⟨1, _⟩ => rfl
  | ⟨2, _⟩ => rfl
  | ⟨3, _⟩ => rfl

/-- The reduction to the maximum over the channel axis, from −∞: the supremum over the channels. -/
theorem rowmax_apply (src : FVec Ideal S10x30x32x64 .f32) (r : Fin 10) (q : Fin 30) (f : Fin 64) :
    multiReduction .maximumf [2] S10x30x64 src 0xFF800000#32 reduces_S10x30x32x64_S10x30x64 (.inl rfl) rfl (ix3 r q f)
      = ⨆ c : Fin 32, src (ix4 r q c f) := by
  refine (Ideal.multiReduction_maximumf_single src _ reduces_S10x30x32x64_S10x30x64 (.inl rfl) rfl (ix3 r q f)).trans ?_
  refine (congrArg (fun b : EReal => Finset.univ.fold max b (src ∘ reduces_S10x30x32x64_S10x30x64.lift (ix3 r q f))) Trop.negInf).trans ?_
  refine (Trop.fold_max_bot _).trans ?_
  exact iSup_congr fun c => congrArg src (lift_ix r q f c)

/-- The reduction to the minimum over the channel axis, from +∞: the infimum over the channels. -/
theorem rowmin_apply (src : FVec Ideal S10x30x32x64 .f32) (r : Fin 10) (q : Fin 30) (f : Fin 64) :
    multiReduction .minimumf [2] S10x30x64 src 0x7F800000#32 reduces_S10x30x32x64_S10x30x64 (.inl rfl) rfl (ix3 r q f)
      = ⨅ c : Fin 32, src (ix4 r q c f) := by
  refine (multiReduction_minimumf_eq_fold src _ reduces_S10x30x32x64_S10x30x64 (.inl rfl) rfl (ix3 r q f)).trans ?_
  refine (reduces_S10x30x32x64_S10x30x64.fold_filter_drop_single FloatOps.minimumf _ src (ix3 r q f)).trans ?_
  refine (congrArg (fun b : EReal => Finset.univ.fold min b (src ∘ reduces_S10x30x32x64_S10x30x64.lift (ix3 r q f))) Trop.posInf).trans ?_
  refine (Trop.fold_min_top _).trans ?_
  exact iInf_congr fun c => congrArg src (lift_ix r q f c)

/-- One offset's slab reduced to its maximum is that offset's supremum … -/
theorem slab_max (vx : Vec Ideal S1x10x30x32 .f32) (vw : Vec Ideal S1x32x64 .f32) (r : Fin 10) (q : Fin 30) (f : Fin 64) :
    multiReduction .maximumf [2] S10x30x64 (k0_pay1 vx vw) 0xFF800000#32 reduces_S10x30x32x64_S10x30x64 (.inl rfl) rfl (ix3 r q f)
      = rowSup vx vw r q f :=
  (rowmax_apply _ r q f).trans (iSup_congr fun c => slab_apply vx vw r q c f)

/-- … and reduced to its minimum, that offset's infimum. -/
theorem slab_min (vx : Vec Ideal S1x10x30x32 .f32) (vw : Vec Ideal S1x32x64 .f32) (r : Fin 10) (q : Fin 30) (f : Fin 64) :
    multiReduction .minimumf [2] S10x30x64 (k0_pay1 vx vw) 0x7F800000#32 reduces_S10x30x32x64_S10x30x64 (.inl rfl) rfl (ix3 r q f)
      = rowInf vx vw r q f :=
  (rowmin_apply _ r q f).trans (iInf_congr fun c => slab_apply vx vw r q c f)

/-! ## The stretches of the body, each at (r, q, f) -/

/-- Offsets 0 and 1 into the running maximum, from −∞. -/
theorem pay3_apply (v6 : Vec Ideal S1x10x30x32 .f32) (v8 : Vec Ideal S1x32x64 .f32) (v21 : Vec Ideal S1x10x30x32 .f32)
    (v23 : Vec Ideal S1x32x64 .f32) (r : Fin 10) (q : Fin 30) (f : Fin 64) :
    k0_pay3 v6 v8 v21 v23 (ix3 r q f) = max (max ⊥ (rowSup v6 v8 r q f)) (rowSup v21 v23 r q f) :=
  congrArg₂ max (congrArg₂ max Trop.negInf (slab_max v6 v8 r q f)) (slab_max v21 v23 r q f)

/-- Offsets 0 and 1 into the running minimum, from +∞. -/
theorem pay4_apply (v6 : Vec Ideal S1x10x30x32 .f32) (v8 : Vec Ideal S1x32x64 .f32) (v21 : Vec Ideal S1x10x30x32 .f32)
    (v23 : Vec Ideal S1x32x64 .f32) (r : Fin 10) (q : Fin 30) (f : Fin 64) :
    k0_pay4 v6 v8 v21 v23 (ix3 r q f) = min (min ⊤ (rowInf v6 v8 r q f)) (rowInf v21 v23 r q f) :=
  congrArg₂ min (congrArg₂ min Trop.posInf (slab_min v6 v8 r q f)) (slab_min v21 v23 r q f)

/-- Offsets 2 and 3 into the running maximum. -/
theorem pay7_apply (v32 : FVec Ideal S10x30x64 .f32) (v36 : Vec Ideal S1x10x30x32 .f32) (v38 : Vec Ideal S1x32x64 .f32)
    (v51 : Vec Ideal S1x10x30x32 .f32) (v53 : Vec Ideal S1x32x64 .f32) (r : Fin 10) (q : Fin 30) (f : Fin 64) :
    k0_pay7 v32 v36 v38 v51 v53 (ix3 r q f) = max (max (v32 (ix3 r q f)) (rowSup v36 v38 r q f)) (rowSup v51 v53 r q f) :=
  congrArg₂ max (congrArg₂ max rfl (slab_max v36 v38 r q f)) (slab_max v51 v53 r q f)

/-- Offsets 2 and 3 into the running minimum. -/
theorem pay8_apply (v33 : FVec Ideal S10x30x64 .f32) (v36 : Vec Ideal S1x10x30x32 .f32) (v38 : Vec Ideal S1x32x64 .f32)
    (v51 : Vec Ideal S1x10x30x32 .f32) (v53 : Vec Ideal S1x32x64 .f32) (r : Fin 10) (q : Fin 30) (f : Fin 64) :
    k0_pay8 v33 v36 v38 v51 v53 (ix3 r q f) = min (min (v33 (ix3 r q f)) (rowInf v36 v38 r q f)) (rowInf v51 v53 r q f) :=
  congrArg₂ min (congrArg₂ min rfl (slab_min v36 v38 r q f)) (slab_min v51 v53 r q f)

/-- Offsets 4, 5 and 6 into the running maximum (offset 4's two operands arrive already re-laid). -/
theorem pay14_apply (v62 : FVec Ideal S10x30x64 .f32) (v68 : Vec Ideal S1x32x64 .f32) (v66 : Vec Ideal S1x10x30x32 .f32)
    (v81 : Vec Ideal S1x10x30x32 .f32) (v83 : Vec Ideal S1x32x64 .f32) (v96 : Vec Ideal S1x10x30x32 .f32)
    (v98 : Vec Ideal S1x32x64 .f32) (r : Fin 10) (q : Fin 30) (f : Fin 64) :
    k0_pay14 v62 (k0_pay9 v68) (k0_pay10 v66) v81 v83 v96 v98 (ix3 r q f)
      = max (max (max (v62 (ix3 r q f)) (rowSup v66 v68 r q f)) (rowSup v81 v83 r q f)) (rowSup v96 v98 r q f) :=
  congrArg₂ max (congrArg₂ max (congrArg₂ max rfl (slab_max v66 v68 r q f)) (slab_max v81 v83 r q f)) (slab_max v96 v98 r q f)

/-- Offsets 4, 5 and 6 into the running minimum. -/
theorem pay15_apply (v63 : FVec Ideal S10x30x64 .f32) (v68 : Vec Ideal S1x32x64 .f32) (v66 : Vec Ideal S1x10x30x32 .f32)
    (v81 : Vec Ideal S1x10x30x32 .f32) (v83 : Vec Ideal S1x32x64 .f32) (v96 : Vec Ideal S1x10x30x32 .f32)
    (v98 : Vec Ideal S1x32x64 .f32) (r : Fin 10) (q : Fin 30) (f : Fin 64) :
    k0_pay15 v63 (k0_pay9 v68) (k0_pay10 v66) v81 v83 v96 v98 (ix3 r q f)
      = min (min (min (v63 (ix3 r q f)) (rowInf v66 v68 r q f)) (rowInf v81 v83 r q f)) (rowInf v96 v98 r q f) :=
  congrArg₂ min (congrArg₂ min (congrArg₂ min rfl (slab_min v66 v68 r q f)) (slab_min v81 v83 r q f)) (slab_min v96 v98 r q f)

/-- The bias row, spread over the tile, at (r, q, f): the bias of filter f. -/
theorem bias_apply (v1 : Vec Ideal S64 .f32) (r : Fin 10) (q : Fin 30) (f : Fin 64) :
    broadcastTo S10x30x64 (shapeCast S1x1x64 v1 shapeCasts_S64_S1x1x64) broadcasts_S1x1x64_S10x30x64 (ix3 r q f) = v1 (ix1 f) := by
  refine (broadcastTo_apply _ _ (ix3 r q f) (ix3 (0 : Fin 1) (0 : Fin 1) f) ?_).trans ?_
  · intro a
    match a with
    | ⟨0, _⟩ => show 0 = if (1 : Nat) = 1 then 0 else r.val; rw [if_pos rfl]
    | ⟨1, _⟩ => show 0 = if (1 : Nat) = 1 then 0 else q.val; rw [if_pos rfl]
    | ⟨2, _⟩ => show f.val = if (64 : Nat) = 1 then 0 else f.val; rw [if_neg (by decide)]
  · refine shapeCast_apply _ _ (ix3 (0 : Fin 1) (0 : Fin 1) f) (ix1 f) ?_
    rw [Shape.rowMajor_val_one, Shape.rowMajor_val_three]
    show f.val = (0 * 1 + 0) * 64 + f.val
    omega

/-- Offsets 7 and 8 into both running folds, then the spread (maximum minus minimum) plus the bias, re-laid as the
    output block: at (0, r, q, f). -/
theorem pay16_apply (v1 : Vec Ideal S64 .f32) (v107 v108 : FVec Ideal S10x30x64 .f32) (v111 : Vec Ideal S1x10x30x32 .f32)
    (v113 : Vec Ideal S1x32x64 .f32) (v126 : Vec Ideal S1x10x30x32 .f32) (v128 : Vec Ideal S1x32x64 .f32)
    (r : Fin 10) (q : Fin 30) (f : Fin 64) :
    k0_pay16 v1 v107 v108 v111 v113 v126 v128 (ix4 (0 : Fin 1) r q f)
      = max (max (v107 (ix3 r q f)) (rowSup v111 v113 r q f)) (rowSup v126 v128 r q f)
        - min (min (v108 (ix3 r q f)) (rowInf v111 v113 r q f)) (rowInf v126 v128 r q f)
        + v1 (ix1 f) := by
  unfold k0_pay16
  refine (shapeCast_apply _ shapeCasts_S10x30x64_S1x10x30x64 (ix4 (0 : Fin 1) r q f) (ix3 r q f) ?_).trans ?_
  · rw [Shape.rowMajor_val_three, Shape.rowMajor_val_four]
    show (r.val * 30 + q.val) * 64 + f.val = ((0 * 10 + r.val) * 30 + q.val) * 64 + f.val
    omega
  · exact congrArg₂ (fun a b : EReal => a + b)
      (congrArg₂ (fun a b : EReal => a - b)
        (congrArg₂ max (congrArg₂ max rfl (slab_max v111 v113 r q f)) (slab_max v126 v128 r q f))
        (congrArg₂ min (congrArg₂ min rfl (slab_min v111 v113 r q f)) (slab_min v126 v128 r q f)))
      (bias_apply v1 r q f)

end Cert.KernelIdeal.Pay

end
-- ==== Proof.Body.lean ====
/-
  The kernel body as one pure function of its three input blocks, and that function at one output position.

  At grid point (b, t) the body reads, for the window offset p = 3·di + dj, the 10 × 30 tile of the image block whose
  rows start at 10·t + di and whose columns start at dj, and page p of the weights; position (r, q) of the output block
  is therefore fed by image rows 10·t + di + r and columns dj + q. Over the extended reals the block's entry
  (0, r, q, f) is the supremum minus the infimum, over the nine offsets and the 32 channels, of image + weight, plus
  the bias of filter f.
-/
import proofs.«124420_j70489003262695_2_alg».proof.Proof.Payload

noncomputable section

namespace Cert.KernelIdeal.Pay

open Cert.KernelIdeal Cert.KernelIdeal.Gen Idealize.ShloMosaic Idealize.ShloMosaic.ValueIdx

section AnyValues

variable {F : FTy → Type} [FloatOps F]

/-- The image tile for offsets with column shift 0: rows from 10·t + d. -/
abbrev tileA (i : grid0.Coords) (x0 : Vec F S1x32x32x32 .f32) (d : Fin 3) : Vec F S1x10x30x32 .f32 :=
  View.ld x0 (Rect.unit (s := S1x32x32x32) (k0_off1 i (BitVec.ofNat 32 d.val)) S1x10x30x32.size (k0_off1_inb i d))

/-- The image tile for offsets with column shift 1. -/
abbrev tileB (i : grid0.Coords) (x0 : Vec F S1x32x32x32 .f32) (d : Fin 3) : Vec F S1x10x30x32 .f32 :=
  View.ld x0 (Rect.unit (s := S1x32x32x32) (k0_off2 i (BitVec.ofNat 32 d.val)) S1x10x30x32.size (k0_off2_inb i d))

/-- The image tile for offsets with column shift 2. -/
abbrev tileC (i : grid0.Coords) (x0 : Vec F S1x32x32x32 .f32) (d : Fin 3) : Vec F S1x10x30x32 .f32 :=
  View.ld x0 (Rect.unit (s := S1x32x32x32) (k0_off3 i (BitVec.ofNat 32 d.val)) S1x10x30x32.size (k0_off3_inb i d))

/-- One 32 × 64 page of the weights. -/
abbrev page (x1 : Vec F S9x32x64 .f32) (off : Fin 3 → Nat) (inb : ∀ a, off a + S1x32x64.size a ≤ S9x32x64.size a) :
    Vec F S1x32x64 .f32 :=
  View.ld x1 (Rect.unit (s := S9x32x64) off S1x32x64.size inb)

/-- The block the body stores, as a function of the image block, the weights and the bias row. -/
def body (i : grid0.Coords) (x0 : Vec F S1x32x32x32 .f32) (x1 : Vec F S9x32x64 .f32) (x2 : Vec F S64 .f32) :
    Vec F S1x10x30x64 .f32 :=
  k0_pay16 x2
    (k0_pay14
      (k0_pay7
        (k0_pay3 (tileA i x0 0) (page x1 ![0, 0, 0] inb_S9x32x64_S1x32x64_0_0_0)
          (tileB i x0 0) (page x1 ![1, 0, 0] inb_S9x32x64_S1x32x64_1_0_0))
        (tileC i x0 0) (page x1 ![2, 0, 0] inb_S9x32x64_S1x32x64_2_0_0)
        (tileA i x0 1) (page x1 ![3, 0, 0] inb_S9x32x64_S1x32x64_3_0_0))
      (k0_pay9 (page x1 ![4, 0, 0] inb_S9x32x64_S1x32x64_4_0_0)) (k0_pay10 (tileB i x0 1))
      (tileC i x0 1) (page x1 ![5, 0, 0] inb_S9x32x64_S1x32x64_5_0_0)
      (tileA i x0 2) (page x1 ![6, 0, 0] inb_S9x32x64_S1x32x64_6_0_0))
    (k0_pay15
      (k0_pay8
        (k0_pay4 (tileA i x0 0) (page x1 ![0, 0, 0] inb_S9x32x64_S1x32x64_0_0_0)
          (tileB i x0 0) (page x1 ![1, 0, 0] inb_S9x32x64_S1x32x64_1_0_0))
        (tileC i x0 0) (page x1 ![2, 0, 0] inb_S9x32x64_S1x32x64_2_0_0)
        (tileA i x0 1) (page x1 ![3, 0, 0] inb_S9x32x64_S1x32x64_3_0_0))
      (k0_pay9 (page x1 ![4, 0, 0] inb_S9x32x64_S1x32x64_4_0_0)) (k0_pay10 (tileB i x0 1))
      (tileC i x0 1) (page x1 ![5, 0, 0] inb_S9x32x64_S1x32x64_5_0_0)
      (tileA i x0 2) (page x1 ![6, 0, 0] inb_S9x32x64_S1x32x64_6_0_0))
    (tileB i x0 2) (page x1 ![7, 0, 0] inb_S9x32x64_S1x32x64_7_0_0)
    (tileC i x0 2) (page x1 ![8, 0, 0] inb_S9x32x64_S1x32x64_8_0_0)

end AnyValues

/-! ## At the extended reals -/

/-- Tap (p, c) of output-block position (r, q), filter f, at a grid point whose row-tile coordinate is t: the image block
    at row 10·t + p / 3 + r, column p % 3 + q, channel c, plus the weights at (p, c, f). -/
def ktap (t : Fin 3) (x0 : Vec Ideal S1x32x32x32 .f32) (x1 : Vec Ideal S9x32x64 .f32) (r : Fin 10) (q : Fin 30) (f : Fin 64)
    (p : Fin 9) (c : Fin 32) : EReal :=
  x0 (ix4 (0 : Fin 1) (⟨10 * t.val + p.val / 3 + r.val, by have := t.isLt; have := p.isLt; have := r.isLt; omega⟩ : Fin 32)
      (⟨p.val % 3 + q.val, by have := q.isLt; omega⟩ : Fin 32) c)
    + x1 (ix3 p c f)

/-- A tile with column shift 0 at (0, r, q, c). -/
theorem tileA_apply (i : grid0.Coords) (x0 : Vec Ideal S1x32x32x32 .f32) (d : Fin 3) (r : Fin 10) (q : Fin 30) (c : Fin 32) :
    tileA i x0 d (ix4 (0 : Fin 1) r q c)
      = x0 (ix4 (0 : Fin 1) (⟨10 * (i 1).val + d.val + r.val, by have h1 : (i 1).val < 3 := (i 1).isLt; have := d.isLt; have := r.isLt; omega⟩ : Fin 32)
          (⟨0 + q.val, by have := q.isLt; omega⟩ : Fin 32) c) := by
  refine congrArg x0 (funext fun a => Fin.ext ?_)
  match a with
  | ⟨0, _⟩ => show k0_off1 i (BitVec.ofNat 32 d.val) 0 + 1 * 0 = 0; rw [k0_off1_eq i d]; rfl
  | ⟨1, _⟩ => show k0_off1 i (BitVec.ofNat 32 d.val) 1 + 1 * r.val = 10 * (i 1).val + d.val + r.val; rw [k0_off1_eq i d]; show 10 * (i 1).val + d.val + 1 * r.val = _; omega
  | ⟨2, _⟩ => show k0_off1 i (BitVec.ofNat 32 d.val) 2 + 1 * q.val = 0 + q.val; rw [k0_off1_eq i d]; show 0 + 1 * q.val = _; omega
  | ⟨3, _⟩ => show k0_off1 i (BitVec.ofNat 32 d.val) 3 + 1 * c.val = c.val; rw [k0_off1_eq i d]; show 0 + 1 * c.val = _; omega

/-- A tile with column shift 1 at (0, r, q, c). -/
theorem tileB_apply (i : grid0.Coords) (x0 : Vec Ideal S1x32x32x32 .f32) (d : Fin 3) (r : Fin 10) (q : Fin 30) (c : Fin 32) :
    tileB i x0 d (ix4 (0 : Fin 1) r q c)
      = x0 (ix4 (0 : Fin 1) (⟨10 * (i 1).val + d.val + r.val, by have h1 : (i 1).val < 3 := (i 1).isLt; have := d.isLt; have := r.isLt; omega⟩ : Fin 32)
          (⟨1 + q.val, by have := q.isLt; omega⟩ : Fin 32) c) := by
  refine congrArg x0 (funext fun a => Fin.ext ?_)
  match a with
  | ⟨0, _⟩ => show k0_off2 i (BitVec.ofNat 32 d.val) 0 + 1 * 0 = 0; rw [k0_off2_eq i d]; rfl
  | ⟨1, _⟩ => show k0_off2 i (BitVec.ofNat 32 d.val) 1 + 1 * r.val = 10 * (i 1).val + d.val + r.val; rw [k0_off2_eq i d]; show 10 * (i 1).val + d.val + 1 * r.val = _; omega
  | ⟨2, _⟩ => show k0_off2 i (BitVec.ofNat 32 d.val) 2 + 1 * q.val = 1 + q.val; rw [k0_off2_eq i d]; show 1 + 1 * q.val = _; omega
  | ⟨3, _⟩ => show k0_off2 i (BitVec.ofNat 32 d.val) 3 + 1 * c.val = c.val; rw [k0_off2_eq i d]; show 0 + 1 * c.val = _; omega

/-- A tile with column shift 2 at (0, r, q, c). -/
theorem tileC_apply (i : grid0.Coords) (x0 : Vec Ideal S1x32x32x32 .f32) (d : Fin 3) (r : Fin 10) (q : Fin 30) (c : Fin 32) :
    tileC i x0 d (ix4 (0 : Fin 1) r q c)
      = x0 (ix4 (0 : Fin 1) (⟨10 * (i 1).val + d.val + r.val, by have h1 : (i 1).val < 3 := (i 1).isLt; have := d.isLt; have := r.isLt; omega⟩ : Fin 32)
          (⟨2 + q.val, by have := q.isLt; omega⟩ : Fin 32) c) := by
  refine congrArg x0 (funext fun a => Fin.ext ?_)
  match a with
  | ⟨0, _⟩ => show k0_off3 i (BitVec.ofNat 32 d.val) 0 + 1 * 0 = 0; rw [k0_off3_eq i d]; rfl
  | ⟨1, _⟩ => show k0_off3 i (BitVec.ofNat 32 d.val) 1 + 1 * r.val = 10 * (i 1).val + d.val + r.val; rw [k0_off3_eq i d]; show 10 * (i 1).val + d.val + 1 * r.val = _; omega
  | ⟨2, _⟩ => show k0_off3 i (BitVec.ofNat 32 d.val) 2 + 1 * q.val = 2 + q.val; rw [k0_off3_eq i d]; show 2 + 1 * q.val = _; omega
  | ⟨3, _⟩ => show k0_off3 i (BitVec.ofNat 32 d.val) 3 + 1 * c.val = c.val; rw [k0_off3_eq i d]; show 0 + 1 * c.val = _; omega

/-- Page p of the weights at (0, c, f). -/
theorem page_apply (x1 : Vec Ideal S9x32x64 .f32) (p : Fin 9) (inb : ∀ a, (![p.val, 0, 0] : Fin 3 → Nat) a + S1x32x64.size a ≤ S9x32x64.size a)
    (c : Fin 32) (f : Fin 64) : page x1 ![p.val, 0, 0] inb (ix3 (0 : Fin 1) c f) = x1 (ix3 p c f) := by
  refine congrArg x1 (funext fun a => Fin.ext ?_)
  match a with
  | ⟨0, _⟩ => show p.val + 1 * 0 = p.val; omega
  | ⟨1, _⟩ => show 0 + 1 * c.val = c.val; omega
  | ⟨2, _⟩ => show 0 + 1 * f.val = f.val; omega

/-- The nine offsets' suprema and infima, each over the taps of its own tile and page. -/
theorem sup_tap (i : grid0.Coords) (x0 : Vec Ideal S1x32x32x32 .f32) (x1 : Vec Ideal S9x32x64 .f32) (r : Fin 10) (q : Fin 30) (f : Fin 64)
    (p : Fin 9) (vx : Vec Ideal S1x10x30x32 .f32) (vw : Vec Ideal S1x32x64 .f32)
    (hx : ∀ c, vx (ix4 (0 : Fin 1) r q c)
      = x0 (ix4 (0 : Fin 1) (⟨10 * (i 1).val + p.val / 3 + r.val, by have h1 : (i 1).val < 3 := (i 1).isLt; have := p.isLt; have := r.isLt; omega⟩ : Fin 32)
          (⟨p.val % 3 + q.val, by have := q.isLt; omega⟩ : Fin 32) c))
    (hw : ∀ c, vw (ix3 (0 : Fin 1) c f) = x1 (ix3 p c f)) :
    rowSup vx vw r q f = ⨆ c, ktap (i 1) x0 x1 r q f p c :=
  iSup_congr fun c => congrArg₂ (fun a b : EReal => a + b) (hx c) (hw c)

theorem inf_tap (i : grid0.Coords) (x0 : Vec Ideal S1x32x32x32 .f32) (x1 : Vec Ideal S9x32x64 .f32) (r : Fin 10) (q : Fin 30) (f : Fin 64)
    (p : Fin 9) (vx : Vec Ideal S1x10x30x32 .f32) (vw : Vec Ideal S1x32x64 .f32)
    (hx : ∀ c, vx (ix4 (0 : Fin 1) r q c)
      = x0 (ix4 (0 : Fin 1) (⟨10 * (i 1).val + p.val / 3 + r.val, by have h1 : (i 1).val < 3 := (i 1).isLt; have := p.isLt; have := r.isLt; omega⟩ : Fin 32)
          (⟨p.val % 3 + q.val, by have := q.isLt; omega⟩ : Fin 32) c))
    (hw : ∀ c, vw (ix3 (0 : Fin 1) c f) = x1 (ix3 p c f)) :
    rowInf vx vw r q f = ⨅ c, ktap (i 1) x0 x1 r q f p c :=
  iInf_congr fun c => congrArg₂ (fun a b : EReal => a + b) (hx c) (hw c)

/-- THE BODY AT A POSITION: the spread of the 288 taps plus the bias. -/
theorem body_apply (i : grid0.Coords) (x0 : Vec Ideal S1x32x32x32 .f32) (x1 : Vec Ideal S9x32x64 .f32) (x2 : Vec Ideal S64 .f32)
    (r : Fin 10) (q : Fin 30) (f : Fin 64) :
    body (F := Ideal) i x0 x1 x2 (ix4 (0 : Fin 1) r q f)
      = (⨆ p, ⨆ c, ktap (i 1) x0 x1 r q f p c) - (⨅ p, ⨅ c, ktap (i 1) x0 x1 r q f p c) + x2 (ix1 f) := by
  unfold body
  rw [pay16_apply, pay14_apply, pay7_apply, pay3_apply, pay15_apply, pay8_apply, pay4_apply]
  refine congrArg₂ (fun a b : EReal => a + b)
    (congrArg₂ (fun a b : EReal => a - b)
      (Eq.trans ?_ (Trop.running_max (fun p => ⨆ c, ktap (i 1) x0 x1 r q f p c)))
      (Eq.trans ?_ (Trop.running_min (fun p => ⨅ c, ktap (i 1) x0 x1 r q f p c)))) rfl
  · exact (congrArg₂ max (congrArg₂ max (congrArg₂ max (congrArg₂ max (congrArg₂ max (congrArg₂ max (congrArg₂ max (congrArg₂ max (congrArg₂ max rfl
      (sup_tap i x0 x1 r q f 0 _ _ (fun c => tileA_apply i x0 0 r q c) (fun c => page_apply x1 0 _ c f)))
      (sup_tap i x0 x1 r q f 1 _ _ (fun c => tileB_apply i x0 0 r q c) (fun c => page_apply x1 1 _ c f)))
      (sup_tap i x0 x1 r q f 2 _ _ (fun c => tileC_apply i x0 0 r q c) (fun c => page_apply x1 2 _ c f)))
      (sup_tap i x0 x1 r q f 3 _ _ (fun c => tileA_apply i x0 1 r q c) (fun c => page_apply x1 3 _ c f)))
      (sup_tap i x0 x1 r q f 4 _ _ (fun c => tileB_apply i x0 1 r q c) (fun c => page_apply x1 4 _ c f)))
      (sup_tap i x0 x1 r q f 5 _ _ (fun c => tileC_apply i x0 1 r q c) (fun c => page_apply x1 5 _ c f)))
      (sup_tap i x0 x1 r q f 6 _ _ (fun c => tileA_apply i x0 2 r q c) (fun c => page_apply x1 6 _ c f)))
      (sup_tap i x0 x1 r q f 7 _ _ (fun c => tileB_apply i x0 2 r q c) (fun c => page_apply x1 7 _ c f)))
      (sup_tap i x0 x1 r q f 8 _ _ (fun c => tileC_apply i x0 2 r q c) (fun c => page_apply x1 8 _ c f)))
  · exact (congrArg₂ min (congrArg₂ min (congrArg₂ min (congrArg₂ min (congrArg₂ min (congrArg₂ min (congrArg₂ min (congrArg₂ min (congrArg₂ min rfl
      (inf_tap i x0 x1 r q f 0 _ _ (fun c => tileA_apply i x0 0 r q c) (fun c => page_apply x1 0 _ c f)))
      (inf_tap i x0 x1 r q f 1 _ _ (fun c => tileB_apply i x0 0 r q c) (fun c => page_apply x1 1 _ c f)))
      (inf_tap i x0 x1 r q f 2 _ _ (fun c => tileC_apply i x0 0 r q c) (fun c => page_apply x1 2 _ c f)))
      (inf_tap i x0 x1 r q f 3 _ _ (fun c => tileA_apply i x0 1 r q c) (fun c => page_apply x1 3 _ c f)))
      (inf_tap i x0 x1 r q f 4 _ _ (fun c => tileB_apply i x0 1 r q c) (fun c => page_apply x1 4 _ c f)))
      (inf_tap i x0 x1 r q f 5 _ _ (fun c => tileC_apply i x0 1 r q c) (fun c => page_apply x1 5 _ c f)))
      (inf_tap i x0 x1 r q f 6 _ _ (fun c => tileA_apply i x0 2 r q c) (fun c => page_apply x1 6 _ c f)))
      (inf_tap i x0 x1 r q f 7 _ _ (fun c => tileB_apply i x0 2 r q c) (fun c => page_apply x1 7 _ c f)))
      (inf_tap i x0 x1 r q f 8 _ _ (fun c => tileC_apply i x0 2 r q c) (fun c => page_apply x1 8 _ c f)))

end Cert.KernelIdeal.Pay

end
-- ==== Proof.Piece.lean ====
/-
  What one grid point leaves in the output's staging buffer: the body's one covering store writes the whole block, and
  the value it stores is the pure function of the three input blocks (the tiles of the image block read at the nine
  offsets, the nine weight pages, the bias row).
-/
import proofs.«124420_j70489003262695_2_alg».proof.Proof.Gen.KernelIdeal.Frame
import proofs.«124420_j70489003262695_2_alg».proof.Proof.Body
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pay

open Cert.KernelIdeal Cert.KernelIdeal.Gen

variable {F : FTy → Type} [FloatOps F]

theorem zero4 : (![0, 0, 0, 0] : Fin 4 → Nat) = fun _ => 0 := funext fun a => by fin_cases a <;> rfl
theorem zero1 : (![0] : Fin 1 → Nat) = fun _ => 0 := funext fun a => by fin_cases a <;> rfl

/-- The staging buffer's contents after the body, on any staging memrefs holding the blocks x0, x1, x2. -/
theorem out_eq_body (c : Dev nD) (i : grid0.Coords) (a2 : Memref sig .tc .vmem S1x32x32x32 .f32) (h2 : a2.IsWhole)
    (a3 : Memref sig .tc .vmem S9x32x64 .f32) (h3 : a3.IsWhole) (a4 : Memref sig .tc .vmem S64 .f32) (h4 : a4.IsWhole)
    (a5 : Memref sig .tc .vmem S1x10x30x64 .f32) (h5 : a5.IsWhole)
    (x0 : Vec F S1x32x32x32 .f32) (x1 : Vec F S9x32x64 .f32) (x2 : Vec F S64 .f32) :
    out0_A_3 c i a2 h2 a3 h3 a4 h4 a5 h5 x0 x1 x2 = body i x0 x1 x2 := by
  unfold out0_A_3
  rw [View.read_writes_eq_canon _ _ _ (cover0_A_3 c i a2 h2 a3 h3 a4 h4 a5 h5 x0 x1 x2)]
  unfold kernelRun0_A
  dsimp only
  sl_unfold_words
  rw [View.canon_unit_zero zero4]
  simp only [View.readAt_eq_ld, h2.read_unread, h3.read_unread, h4.read_unread, View.ld_unit_zero (S := S64) zero1]
  rfl

end Cert.KernelIdeal.Pay

end
-- ==== Proof.Blocks.lean ====
/-
  From blocks to the array: what each grid point writes back is its block of the specification, and the 24 blocks
  (8 images × 3 row tiles of 10 rows) tile the result array, so the array after the run is the specification of the
  argument arrays.

  At point (b, t) the output block covers image b, rows 10·t … 10·t + 9, all 30 columns and 64 filters; the image
  block is the whole image b, the weights the whole re-laid array (page p, row c of it is row 32·p + c of the
  argument), the bias the whole row.
-/
import proofs.«124420_j70489003262695_2_alg».proof.Proof.Gen.KernelIdeal.Value
import proofs.«124420_j70489003262695_2_alg».proof.Proof.Piece
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Pay

/-- The weights as the region finds them: the argument re-laid from [1, 1, 1, 288, 64] to [9, 32, 64]. -/
theorem V_main_v0 {F : FTy → Type} [FloatOps F] (m : (ℓ : Loc nD τ sig) → Buf (Elt F) ℓ) (c : Dev nD) :
    (V m c main_v0 : S9x32x64.Idx → Elt F .f32)
      = shapeCast S9x32x64 (m ((c : Thread nD τ).loc main_arg1)) shapeCasts_S1x1x1x288x64_S9x32x64 := by
  dsimp only [Gen.V, Gen.hostOps0]
  after_results
  rfl

/-- Entry (p, c, f) of the re-laid weights is entry (0, 0, 0, 32·p + c, f) of the argument. -/
theorem relaid_apply {α : Type} (w : S1x1x1x288x64.Idx → α) (p : Fin 9) (c : Fin 32) (f : Fin 64) :
    shapeCast S9x32x64 w shapeCasts_S1x1x1x288x64_S9x32x64 (ix3 p c f)
      = w (ix5 (0 : Fin 1) (0 : Fin 1) (0 : Fin 1) (⟨32 * p.val + c.val, by have := p.isLt; have := c.isLt; omega⟩ : Fin 288) f) := by
  refine shapeCast_apply _ _ (ix3 p c f) _ ?_
  rw [Shape.rowMajor_val_five, Shape.rowMajor_val_three]
  show ((((0 * 1 + 0) * 1 + 0) * 288 + (32 * p.val + c.val)) * 64 + f.val) = (p.val * 32 + c.val) * 64 + f.val
  omega

variable (m : (ℓ : Loc nD τ sig) → Buf (Elt Ideal) ℓ) (ρ : Dev nD → PrngReg)

/-- The printed index maps over the 24 grid points: the image block moves with the output block's image coordinate and
    sits at 0 elsewhere; the weights and the bias sit at 0; the body's row-tile coordinate is the output block's; the
    output's block indices stay in their ranges. -/
theorem idx_facts : ∀ t : Fin cfg0.N,
    win0_0.index t (0 : Fin 4) = win0_3.index t (0 : Fin 4) ∧ win0_0.index t (1 : Fin 4) = 0
    ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 1) = 0
    ∧ (grid0.coords t 1).val = win0_3.index t (1 : Fin 4)
    ∧ win0_3.index t (0 : Fin 4) < 8 ∧ win0_3.index t (1 : Fin 4) < 3
    ∧ win0_3.index t (2 : Fin 4) = 0 ∧ win0_3.index t (3 : Fin 4) = 0 :=
  (by decide +kernel : ∀ t : Fin grid0.N, _)

/-- Every (image, row tile) is some point's output block. -/
theorem idx_onto : ∀ (b : Fin 8) (k : Fin 3), ∃ t : Fin cfg0.N, win0_3.index t = ![b.val, k.val, 0, 0] :=
  (by decide +kernel : ∀ (b : Fin 8) (k : Fin 3), ∃ t : Fin grid0.N, win0_3.index t = ![b.val, k.val, 0, 0])

/-- WHAT POINT t WRITES BACK is its block of the specification of the argument arrays. -/
theorem flushed_eq (c : Dev nD) (t : Fin cfg0.N) :
    (dats m 0 c).flushed 3 t = ((cfg0.win 3).blk t).view.read (Elt Ideal)
      (Trop.G (m ((c : Thread nD τ).loc main_arg0)) (m ((c : Thread nD τ).loc main_arg1)) (m ((c : Thread nD τ).loc main_arg2))) := by
  rw [Cert.KernelIdeal.Value.flushed3_A]
  rw [out_eq_body c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨e00, e01, e02, e03, e10, e11, e12, e20, et, b0, b1, e32, e33⟩ := idx_facts t
  funext j
  have hj0 : (j 0).val < 1 := (j 0).isLt
  have hj1 : (j 1).val < 10 := (j 1).isLt
  have hj2 : (j 2).val < 30 := (j 2).isLt
  have hj3 : (j 3).val < 64 := (j 3).isLt
  have ej : (cfg0.win 3).xinj (grid0.coords t) j = ix4 (0 : Fin 1) (⟨(j 1).val, hj1⟩ : Fin 10) (⟨(j 2).val, hj2⟩ : Fin 30) (⟨(j 3).val, hj3⟩ : Fin 64) := by
    funext a
    apply Fin.ext
    match a with
    | ⟨0, _⟩ => show (j 0).val = 0; omega
    | ⟨1, _⟩ => rfl
    | ⟨2, _⟩ => rfl
    | ⟨3, _⟩ => rfl
  show body (grid0.coords t) (iblk m c 0 t) (iblk m c 1 t) (iblk m c 2 t) ((cfg0.win 3).xinj (grid0.coords t) j) = _
  rw [ej]
  refine (body_apply (grid0.coords t) (iblk m c 0 t) (iblk m c 1 t) (iblk m c 2 t) ⟨(j 1).val, hj1⟩ ⟨(j 2).val, hj2⟩ ⟨(j 3).val, hj3⟩).trans ?_
  rw [View.read_apply]
  have htap : ∀ (p : Fin 9) (k : Fin 32),
      ktap (grid0.coords t 1) (iblk m c 0 t) (iblk m c 1 t) ⟨(j 1).val, hj1⟩ ⟨(j 2).val, hj2⟩ ⟨(j 3).val, hj3⟩ p k
        = Trop.tap (m ((c : Thread nD τ).loc main_arg0)) (m ((c : Thread nD τ).loc main_arg1))
            ⟨((((cfg0.win 3).blk t).view.emb j) 0).val, ((((cfg0.win 3).blk t).view.emb j) 0).isLt⟩
            ⟨((((cfg0.win 3).blk t).view.emb j) 1).val, ((((cfg0.win 3).blk t).view.emb j) 1).isLt⟩
            ⟨((((cfg0.win 3).blk t).view.emb j) 2).val, ((((cfg0.win 3).blk t).view.emb j) 2).isLt⟩
            ⟨((((cfg0.win 3).blk t).view.emb j) 3).val, ((((cfg0.win 3).blk t).view.emb j) 3).isLt⟩ p k := by
    intro p k
    have hp := p.isLt
    have hk := k.isLt
    refine congrArg₂ (fun a b : EReal => a + b) ?_ ?_
    · show V m c main_arg0 (((cfg0.win 0).blk t).view.emb _) = _
      rw [V_main_arg0]
      refine congrArg _ (funext fun a => Fin.ext ?_)
      match a with
      | ⟨0, _⟩ => show win0_0.index t (0 : Fin 4) * 1 + 1 * 0 = win0_3.index t (0 : Fin 4) * 1 + 1 * (j 0).val; omega
      | ⟨1, _⟩ => show win0_0.index t (1 : Fin 4) * 32 + 1 * (10 * (grid0.coords t 1).val + p.val / 3 + (j 1).val) = win0_3.index t (1 : Fin 4) * 10 + 1 * (j 1).val + p.val / 3; omega
      | ⟨2, _⟩ => show win0_0.index t (2 : Fin 4) * 32 + 1 * (p.val % 3 + (j 2).val) = win0_3.index t (2 : Fin 4) * 30 + 1 * (j 2).val + p.val % 3; omega
      | ⟨3, _⟩ => show win0_0.index t (3 : Fin 4) * 32 + 1 * k.val = k.val; omega
    · show V m c main_v0 (((cfg0.win 1).blk t).view.emb (ix3 p k ⟨(j 3).val, hj3⟩)) = _
      rw [V_main_v0]
      have ei : ((cfg0.win 1).blk t).view.emb (ix3 p k (⟨(j 3).val, hj3⟩ : Fin 64)) = ix3 p k (⟨(j 3).val, hj3⟩ : Fin 64) := by
        funext a
        apply Fin.ext
        match a with
        | ⟨0, _⟩ => show win0_1.index t (0 : Fin 3) * 9 + 1 * p.val = p.val; omega
        | ⟨1, _⟩ => show win0_1.index t (1 : Fin 3) * 32 + 1 * k.val = k.val; omega
        | ⟨2, _⟩ => show win0_1.index t (2 : Fin 3) * 64 + 1 * (j 3).val = (j 3).val; omega
      rw [ei, relaid_apply]
      refine congrArg _ (funext fun a => Fin.ext ?_)
      match a with
      | ⟨0, _⟩ => rfl
      | ⟨1, _⟩ => rfl
      | ⟨2, _⟩ => rfl
      | ⟨3, _⟩ => rfl
      | ⟨4, _⟩ => show (j 3).val = win0_3.index t (3 : Fin 4) * 64 + 1 * (j 3).val; omega
  refine congrArg₂ (fun a b : EReal => a + b)
    (congrArg₂ (fun a b : EReal => a - b) (iSup_congr fun p => iSup_congr fun k => htap p k)
      (iInf_congr fun p => iInf_congr fun k => htap p k)) ?_
  show V m c main_arg2 (((cfg0.win 2).blk t).view.emb (ix1 (⟨(j 3).val, hj3⟩ : Fin 64))) = _
  rw [V_main_arg2]
  refine congrArg _ (funext fun a => Fin.ext ?_)
  match a with
  | ⟨0, _⟩ => show win0_2.index t (0 : Fin 1) * 64 + 1 * (j 3).val = win0_3.index t (3 : Fin 4) * 64 + 1 * (j 3).val; omega

/-- An index of the result array is in point t's block iff each coordinate is in the block's range on its axis. -/
theorem mem_blk (t : Fin cfg0.N) (i : S8x30x30x64.Idx) :
    i ∈ ((cfg0.win 3).blk t).view.set ↔ ∀ a : Fin 4, win0_3.index t a * S1x10x30x64.size a ≤ (i a).val
      ∧ (i a).val < win0_3.index t a * S1x10x30x64.size a + S1x10x30x64.size a := by
  show i ∈ ((View.whole main_v1).slice (win0_3.rect t)).set ↔ _
  rw [View.set_slice_whole, Rect.mem_set_unit]
  exact Iff.rfl

/-- Every index of the result array is in some point's block: row h of image b is in row tile h / 10. -/
theorem cover (i : S8x30x30x64.Idx) : ∃ t : Fin cfg0.N, (cfg0.win 3).flush t = true ∧ i ∈ ((cfg0.win 3).blk t).view.set := by
  have h0 : (i 0).val < 8 := (i 0).isLt
  have h1 : (i 1).val < 30 := (i 1).isLt
  have h2 : (i 2).val < 30 := (i 2).isLt
  have h3 : (i 3).val < 64 := (i 3).isLt
  obtain ⟨t, ht⟩ := idx_onto ⟨(i 0).val, h0⟩ ⟨(i 1).val / 10, by omega⟩
  have q0 : win0_3.index t (0 : Fin 4) = (i 0).val := congrFun ht 0
  have q1 : win0_3.index t (1 : Fin 4) = (i 1).val / 10 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 10 ≤ (i 1).val ∧ (i 1).val < win0_3.index t (1 : Fin 4) * 10 + 10; omega
  | ⟨2, _⟩ => show win0_3.index t (2 : Fin 4) * 30 ≤ (i 2).val ∧ (i 2).val < win0_3.index t (2 : Fin 4) * 30 + 30; omega
  | ⟨3, _⟩ => show win0_3.index t (3 : Fin 4) * 64 ≤ (i 3).val ∧ (i 3).val < win0_3.index t (3 : Fin 4) * 64 + 64; omega

/-- THE ARRAY after the run is the specification of the argument arrays. -/
theorem final (c : Dev nD) :
    (dats m 0 c).arrAt 3 cfg0.N
      = Trop.G (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v1)
        = Trop.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.Blocks

end
-- ==== Proof.RefValue.lean ====
/-
  The reference, read at one output index, is the specification.

  The reference stacks the nine shifted 30 × 30 views of the image along a new axis (offset p = 3·di + dj reads rows
  di + h, columns dj + v), flattens (offset, channel) into the tap index k = 32·p + c, adds the weights' row k, and takes
  the maximum and the minimum over k from −∞ and +∞. Read at (b, h, v, f) each is the supremum (infimum) of the 288
  taps, grouped by offset.
-/
import proofs.«124420_j70489003262695_2_alg».proof.Proof.Gen.ReferenceIdeal.Read
import proofs.«124420_j70489003262695_2_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- Offset 0 of the stack: the view shifted by (0, 0). -/
theorem patch0 (x0 : (⟨S8x32x32x32, .f32⟩ : BufTy).Contents (Elt Ideal)) (b : Fin 8) (h v : Fin 30) (c : Fin 32) :
    val_main_v18 (F := Ideal) x0 (ix5 b h v (⟨0, by decide⟩ : Fin 9) c)
      = x0 (ix4 b (⟨h.val + 0 / 3, by have := h.isLt; omega⟩ : Fin 32) (⟨v.val + 0 % 3, by have := v.isLt; omega⟩ : Fin 32) c) := by
  unfold val_main_v18
  refine Eq.trans (concatenate_apply_piece (3 : Fin 5) _ _ (ix5 b h v (⟨0, by decide⟩ : Fin 9) c) 0 (by show (0 : Nat) < 9; decide) S8x30x30x1x32 (val_main_v9 (F := Ideal) x0) rfl rfl 0 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v9_apply, val_main_v0_apply]
    refine congrArg x0 (funext fun a => Fin.ext ?_)
    match a with
    | ⟨0, _⟩ => rfl
    | ⟨1, _⟩ => show h.val = h.val + 0 / 3; omega
    | ⟨2, _⟩ => show v.val = v.val + 0 % 3; omega
    | ⟨3, _⟩ => rfl

/-- Offset 1 of the stack: the view shifted by (0, 1). -/
theorem patch1 (x0 : (⟨S8x32x32x32, .f32⟩ : BufTy).Contents (Elt Ideal)) (b : Fin 8) (h v : Fin 30) (c : Fin 32) :
    val_main_v18 (F := Ideal) x0 (ix5 b h v (⟨1, by decide⟩ : Fin 9) c)
      = x0 (ix4 b (⟨h.val + 1 / 3, by have := h.isLt; omega⟩ : Fin 32) (⟨v.val + 1 % 3, by have := v.isLt; omega⟩ : Fin 32) c) := by
  unfold val_main_v18
  refine Eq.trans (concatenate_apply_piece (3 : Fin 5) _ _ (ix5 b h v (⟨1, by decide⟩ : Fin 9) c) 1 (by show (1 : Nat) < 9; decide) S8x30x30x1x32 (val_main_v10 (F := Ideal) x0) rfl rfl 1 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v10_apply, val_main_v1_apply]
    refine congrArg x0 (funext fun a => Fin.ext ?_)
    match a with
    | ⟨0, _⟩ => rfl
    | ⟨1, _⟩ => show h.val = h.val + 1 / 3; omega
    | ⟨2, _⟩ => show 1 + v.val = v.val + 1 % 3; omega
    | ⟨3, _⟩ => rfl

/-- Offset 2 of the stack: the view shifted by (0, 2). -/
theorem patch2 (x0 : (⟨S8x32x32x32, .f32⟩ : BufTy).Contents (Elt Ideal)) (b : Fin 8) (h v : Fin 30) (c : Fin 32) :
    val_main_v18 (F := Ideal) x0 (ix5 b h v (⟨2, by decide⟩ : Fin 9) c)
      = x0 (ix4 b (⟨h.val + 2 / 3, by have := h.isLt; omega⟩ : Fin 32) (⟨v.val + 2 % 3, by have := v.isLt; omega⟩ : Fin 32) c) := by
  unfold val_main_v18
  refine Eq.trans (concatenate_apply_piece (3 : Fin 5) _ _ (ix5 b h v (⟨2, by decide⟩ : Fin 9) c) 2 (by show (2 : Nat) < 9; decide) S8x30x30x1x32 (val_main_v11 (F := Ideal) x0) rfl rfl 2 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v11_apply, val_main_v2_apply]
    refine congrArg x0 (funext fun a => Fin.ext ?_)
    match a with
    | ⟨0, _⟩ => rfl
    | ⟨1, _⟩ => show h.val = h.val + 2 / 3; omega
    | ⟨2, _⟩ => show 2 + v.val = v.val + 2 % 3; omega
    | ⟨3, _⟩ => rfl

/-- Offset 3 of the stack: the view shifted by (1, 0). -/
theorem patch3 (x0 : (⟨S8x32x32x32, .f32⟩ : BufTy).Contents (Elt Ideal)) (b : Fin 8) (h v : Fin 30) (c : Fin 32) :
    val_main_v18 (F := Ideal) x0 (ix5 b h v (⟨3, by decide⟩ : Fin 9) c)
      = x0 (ix4 b (⟨h.val + 3 / 3, by have := h.isLt; omega⟩ : Fin 32) (⟨v.val + 3 % 3, by have := v.isLt; omega⟩ : Fin 32) c) := by
  unfold val_main_v18
  refine Eq.trans (concatenate_apply_piece (3 : Fin 5) _ _ (ix5 b h v (⟨3, by decide⟩ : Fin 9) c) 3 (by show (3 : Nat) < 9; decide) S8x30x30x1x32 (val_main_v12 (F := Ideal) x0) rfl rfl 3 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v12_apply, val_main_v3_apply]
    refine congrArg x0 (funext fun a => Fin.ext ?_)
    match a with
    | ⟨0, _⟩ => rfl
    | ⟨1, _⟩ => show 1 + h.val = h.val + 3 / 3; omega
    | ⟨2, _⟩ => show v.val = v.val + 3 % 3; omega
    | ⟨3, _⟩ => rfl

/-- Offset 4 of the stack: the view shifted by (1, 1). -/
theorem patch4 (x0 : (⟨S8x32x32x32, .f32⟩ : BufTy).Contents (Elt Ideal)) (b : Fin 8) (h v : Fin 30) (c : Fin 32) :
    val_main_v18 (F := Ideal) x0 (ix5 b h v (⟨4, by decide⟩ : Fin 9) c)
      = x0 (ix4 b (⟨h.val + 4 / 3, by have := h.isLt; omega⟩ : Fin 32) (⟨v.val + 4 % 3, by have := v.isLt; omega⟩ : Fin 32) c) := by
  unfold val_main_v18
  refine Eq.trans (concatenate_apply_piece (3 : Fin 5) _ _ (ix5 b h v (⟨4, by decide⟩ : Fin 9) c) 4 (by show (4 : Nat) < 9; decide) S8x30x30x1x32 (val_main_v13 (F := Ideal) x0) rfl rfl 4 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v13_apply, val_main_v4_apply]
    refine congrArg x0 (funext fun a => Fin.ext ?_)
    match a with
    | ⟨0, _⟩ => rfl
    | ⟨1, _⟩ => show 1 + h.val = h.val + 4 / 3; omega
    | ⟨2, _⟩ => show 1 + v.val = v.val + 4 % 3; omega
    | ⟨3, _⟩ => rfl

/-- Offset 5 of the stack: the view shifted by (1, 2). -/
theorem patch5 (x0 : (⟨S8x32x32x32, .f32⟩ : BufTy).Contents (Elt Ideal)) (b : Fin 8) (h v : Fin 30) (c : Fin 32) :
    val_main_v18 (F := Ideal) x0 (ix5 b h v (⟨5, by decide⟩ : Fin 9) c)
      = x0 (ix4 b (⟨h.val + 5 / 3, by have := h.isLt; omega⟩ : Fin 32) (⟨v.val + 5 % 3, by have := v.isLt; omega⟩ : Fin 32) c) := by
  unfold val_main_v18
  refine Eq.trans (concatenate_apply_piece (3 : Fin 5) _ _ (ix5 b h v (⟨5, by decide⟩ : Fin 9) c) 5 (by show (5 : Nat) < 9; decide) S8x30x30x1x32 (val_main_v14 (F := Ideal) x0) rfl rfl 5 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v14_apply, val_main_v5_apply]
    refine congrArg x0 (funext fun a => Fin.ext ?_)
    match a with
    | ⟨0, _⟩ => rfl
    | ⟨1, _⟩ => show 1 + h.val = h.val + 5 / 3; omega
    | ⟨2, _⟩ => show 2 + v.val = v.val + 5 % 3; omega
    | ⟨3, _⟩ => rfl

/-- Offset 6 of the stack: the view shifted by (2, 0). -/
theorem patch6 (x0 : (⟨S8x32x32x32, .f32⟩ : BufTy).Contents (Elt Ideal)) (b : Fin 8) (h v : Fin 30) (c : Fin 32) :
    val_main_v18 (F := Ideal) x0 (ix5 b h v (⟨6, by decide⟩ : Fin 9) c)
      = x0 (ix4 b (⟨h.val + 6 / 3, by have := h.isLt; omega⟩ : Fin 32) (⟨v.val + 6 % 3, by have := v.isLt; omega⟩ : Fin 32) c) := by
  unfold val_main_v18
  refine Eq.trans (concatenate_apply_piece (3 : Fin 5) _ _ (ix5 b h v (⟨6, by decide⟩ : Fin 9) c) 6 (by show (6 : Nat) < 9; decide) S8x30x30x1x32 (val_main_v15 (F := Ideal) x0) rfl rfl 6 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v15_apply, val_main_v6_apply]
    refine congrArg x0 (funext fun a => Fin.ext ?_)
    match a with
    | ⟨0, _⟩ => rfl
    | ⟨1, _⟩ => show 2 + h.val = h.val + 6 / 3; omega
    | ⟨2, _⟩ => show v.val = v.val + 6 % 3; omega
    | ⟨3, _⟩ => rfl

/-- Offset 7 of the stack: the view shifted by (2, 1). -/
theorem patch7 (x0 : (⟨S8x32x32x32, .f32⟩ : BufTy).Contents (Elt Ideal)) (b : Fin 8) (h v : Fin 30) (c : Fin 32) :
    val_main_v18 (F := Ideal) x0 (ix5 b h v (⟨7, by decide⟩ : Fin 9) c)
      = x0 (ix4 b (⟨h.val + 7 / 3, by have := h.isLt; omega⟩ : Fin 32) (⟨v.val + 7 % 3, by have := v.isLt; omega⟩ : Fin 32) c) := by
  unfold val_main_v18
  refine Eq.trans (concatenate_apply_piece (3 : Fin 5) _ _ (ix5 b h v (⟨7, by decide⟩ : Fin 9) c) 7 (by show (7 : Nat) < 9; decide) S8x30x30x1x32 (val_main_v16 (F := Ideal) x0) rfl rfl 7 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v16_apply, val_main_v7_apply]
    refine congrArg x0 (funext fun a => Fin.ext ?_)
    match a with
    | ⟨0, _⟩ => rfl
    | ⟨1, _⟩ => show 2 + h.val = h.val + 7 / 3; omega
    | ⟨2, _⟩ => show 1 + v.val = v.val + 7 % 3; omega
    | ⟨3, _⟩ => rfl

/-- Offset 8 of the stack: the view shifted by (2, 2). -/
theorem patch8 (x0 : (⟨S8x32x32x32, .f32⟩ : BufTy).Contents (Elt Ideal)) (b : Fin 8) (h v : Fin 30) (c : Fin 32) :
    val_main_v18 (F := Ideal) x0 (ix5 b h v (⟨8, by decide⟩ : Fin 9) c)
      = x0 (ix4 b (⟨h.val + 8 / 3, by have := h.isLt; omega⟩ : Fin 32) (⟨v.val + 8 % 3, by have := v.isLt; omega⟩ : Fin 32) c) := by
  unfold val_main_v18
  refine Eq.trans (concatenate_apply_piece (3 : Fin 5) _ _ (ix5 b h v (⟨8, by decide⟩ : Fin 9) c) 8 (by show (8 : Nat) < 9; decide) S8x30x30x1x32 (val_main_v17 (F := Ideal) x0) rfl rfl 8 rfl
      (ix5 b h v (0 : Fin 1) c) (fun a ha => ?_) rfl) ?_
  · match a with
    | ⟨0, _⟩ => rfl
    | ⟨1, _⟩ => rfl
    | ⟨2, _⟩ => rfl
    | ⟨3, _⟩ => exact absurd rfl ha
    | ⟨4, _⟩ => rfl
  · rw [val_main_v17_apply, val_main_v8_apply]
    refine congrArg x0 (funext fun a => Fin.ext ?_)
    match a with
    | ⟨0, _⟩ => rfl
    | ⟨1, _⟩ => show 2 + h.val = h.val + 8 / 3; omega
    | ⟨2, _⟩ => show 2 + v.val = v.val + 8 % 3; omega
    | ⟨3, _⟩ => rfl

/-- The stack of the nine shifted views at (b, h, v, p, c): the image at row h + p / 3, column v + p % 3, channel c. -/
theorem patches_apply (x0 : (⟨S8x32x32x32, .f32⟩ : BufTy).Contents (Elt Ideal)) (b : Fin 8) (h v : Fin 30) (p : Fin 9) (c : Fin 32) :
    val_main_v18 (F := Ideal) x0 (ix5 b h v p c)
      = x0 (ix4 b (⟨h.val + p.val / 3, by have := h.isLt; have := p.isLt; omega⟩ : Fin 32)
          (⟨v.val + p.val % 3, by have := v.isLt; omega⟩ : Fin 32) c) := by
  match p with
  | ⟨0, _⟩ => exact patch0 x0 b h v c
  | ⟨1, _⟩ => exact patch1 x0 b h v c
  | ⟨2, _⟩ => exact patch2 x0 b h v c
  | ⟨3, _⟩ => exact patch3 x0 b h v c
  | ⟨4, _⟩ => exact patch4 x0 b h v c
  | ⟨5, _⟩ => exact patch5 x0 b h v c
  | ⟨6, _⟩ => exact patch6 x0 b h v c
  | ⟨7, _⟩ => exact patch7 x0 b h v c
  | ⟨8, _⟩ => exact patch8 x0 b h v c

/-- The flattened patches at (b, h, v, k): the stack at offset k / 32, channel k % 32. -/
theorem flat_idx (b : Fin 8) (h v : Fin 30) (k : Fin 288) (f : Fin 64) :
    idx_main_v19 (idx_main_v20 (idx_main_v21 (ix5 b h v k f)))
      = ix5 b h v (⟨k.val / 32, by have := k.isLt; omega⟩ : Fin 9) (⟨k.val % 32, Nat.mod_lt _ (by decide)⟩ : Fin 32) := by
  have hb := b.isLt
  have hh := h.isLt
  have hv := v.isLt
  have hk := k.isLt
  funext a
  apply Fin.ext
  match a with
  | ⟨0, _⟩ => show (((b.val * 30 + h.val) * 30 + v.val) * 288 + k.val) / 259200 = b.val; omega
  | ⟨1, _⟩ => show (((b.val * 30 + h.val) * 30 + v.val) * 288 + k.val) / 8640 % 30 = h.val; omega
  | ⟨2, _⟩ => show (((b.val * 30 + h.val) * 30 + v.val) * 288 + k.val) / 288 % 30 = v.val; omega
  | ⟨3, _⟩ => show (((b.val * 30 + h.val) * 30 + v.val) * 288 + k.val) / 32 % 9 = k.val / 32; omega
  | ⟨4, _⟩ => show (((b.val * 30 + h.val) * 30 + v.val) * 288 + k.val) % 32 = k.val % 32; omega

/-- The summand the reference reduces, at (b, h, v, k, f): tap (k / 32, k % 32) of the window. -/
theorem summand_apply (x0 : (⟨S8x32x32x32, .f32⟩ : BufTy).Contents (Elt Ideal)) (x1 : (⟨S1x1x1x288x64, .f32⟩ : BufTy).Contents (Elt Ideal))
    (b : Fin 8) (h v : Fin 30) (k : Fin 288) (f : Fin 64) :
    val_main_v23 (F := Ideal) x0 x1 (ix5 b h v k f)
      = Trop.tap x0 x1 b h v f (⟨k.val / 32, by have := k.isLt; omega⟩ : Fin 9) (⟨k.val % 32, Nat.mod_lt _ (by decide)⟩ : Fin 32) := by
  rw [val_main_v23_apply, val_main_v21_apply, val_main_v20_apply, val_main_v19_apply, val_main_v22_apply, flat_idx, patches_apply]
  refine congrArg₂ (fun a b : EReal => a + b) rfl (congrArg x1 (funext fun a => Fin.ext ?_))
  match a with
  | ⟨0, _⟩ => rfl
  | ⟨1, _⟩ => rfl
  | ⟨2, _⟩ => rfl
  | ⟨3, _⟩ => show k.val = 32 * (k.val / 32) + k.val % 32; omega
  | ⟨4, _⟩ => rfl

/-- The witness that names the index put back on the reduced axis. -/
theorem hred : S8x30x30x288x64.Reduces [3] S8x30x30x64 := by decide

/-- Output index (b, h, v, f) with tap index k put back on the reduced axis. -/
theorem lift_ix (b : Fin 8) (h v : Fin 30) (f : Fin 64) (k : Fin 288) : hred.lift (ix4 b h v f) k = ix5 b h v k f := by
  funext a
  match a with
  | ⟨0, _⟩ => rfl
  | ⟨1, _⟩ => rfl
  | ⟨2, _⟩ => rfl
  | ⟨3, _⟩ => rfl
  | ⟨4, _⟩ => rfl

/-- The reference's maximum over the tap axis is the supremum of the window's taps … -/
theorem max_apply (x0 : (⟨S8x32x32x32, .f32⟩ : BufTy).Contents (Elt Ideal)) (x1 : (⟨S1x1x1x288x64, .f32⟩ : BufTy).Contents (Elt Ideal))
    (b : Fin 8) (h v : Fin 30) (f : Fin 64) :
    val_main_v24 (F := Ideal) x0 x1 (ix4 b h v f) = ⨆ p, ⨆ c, Trop.tap x0 x1 b h v f p c := by
  unfold val_main_v24
  refine (Host.reduce_eq_fold_single FloatOps.maximumf _ _ reducesTo_S8x30x30x288x64_S8x30x30x64_d3 hred h_S_ (ix4 b h v f)).trans ?_
  refine (congrArg (fun z : EReal => Finset.univ.fold max z (val_main_v23 (F := Ideal) x0 x1 ∘ hred.lift (ix4 b h v f))) Trop.negInf).trans ?_
  refine (Trop.fold_max_bot _).trans ?_
  exact Trop.iSup_flat (Trop.tap x0 x1 b h v f) _ fun k =>
    (congrArg (val_main_v23 (F := Ideal) x0 x1) (lift_ix b h v f k)).trans (summand_apply x0 x1 b h v k f)

/-- … and its minimum their infimum. -/
theorem min_apply (x0 : (⟨S8x32x32x32, .f32⟩ : BufTy).Contents (Elt Ideal)) (x1 : (⟨S1x1x1x288x64, .f32⟩ : BufTy).Contents (Elt Ideal))
    (b : Fin 8) (h v : Fin 30) (f : Fin 64) :
    val_main_v25 (F := Ideal) x0 x1 (ix4 b h v f) = ⨅ p, ⨅ c, Trop.tap x0 x1 b h v f p c := by
  unfold val_main_v25
  refine (Host.reduce_eq_fold_single FloatOps.minimumf _ _ reducesTo_S8x30x30x288x64_S8x30x30x64_d3 hred h_S_ (ix4 b h v f)).trans ?_
  refine (congrArg (fun z : EReal => Finset.univ.fold min z (val_main_v23 (F := Ideal) x0 x1 ∘ hred.lift (ix4 b h v f))) Trop.posInf).trans ?_
  refine (Trop.fold_min_top _).trans ?_
  exact Trop.iInf_flat (Trop.tap x0 x1 b h v f) _ fun k =>
    (congrArg (val_main_v23 (F := Ideal) x0 x1) (lift_ix b h v f k)).trans (summand_apply x0 x1 b h v k f)

/-- THE REFERENCE IS THE SPECIFICATION, index by index. -/
theorem result_eq (x0 : (⟨S8x32x32x32, .f32⟩ : BufTy).Contents (Elt Ideal)) (x1 : (⟨S1x1x1x288x64, .f32⟩ : BufTy).Contents (Elt Ideal))
    (x2 : (⟨S64, .f32⟩ : BufTy).Contents (Elt Ideal)) :
    val_main_v29 (F := Ideal) x0 x1 x2 = Trop.G x0 x1 x2 := by
  funext i
  obtain ⟨b, h, v, f, rfl⟩ : ∃ (b : Fin 8) (h v : Fin 30) (f : Fin 64), i = ix4 b h v f := ⟨i 0, i 1, i 2, i 3, eq_ix4 i⟩
  rw [val_main_v29_apply, val_main_v26_apply, val_main_v28_apply, val_main_v27_apply, max_apply, min_apply]
  unfold Trop.G
  refine congrArg₂ (fun a b : EReal => a + b) rfl (congrArg x2 (funext fun a => ?_))
  match a with
  | ⟨0, _⟩ => rfl

end Cert.ReferenceIdeal.RefValue

end
-- ==== Proof.lean ====
/-
  A tropical 3×3 "convolution" — for each of 64 filters, the maximum minus the minimum, over the nine window offsets and
  32 channels, of image + weight, plus a bias — computed by a kernel over a grid of 8 images × 3 row tiles of 10 rows,
  against a reference that reduces over the flat axis of 288 taps.

  Over the extended reals both compute, at every output index (b, h, v, f),

      sup_{p, c} (x[b, h + p / 3, v + p % 3, c] + w[32·p + c, f]) − inf_{p, c} (…) + bias[f]

  (Proof/Spec.lean): the kernel by folding nine per-offset channel suprema into a running maximum from −∞ (and the infima
  into a running minimum from +∞), block by block over the grid (Proof/Payload.lean, Proof/Body.lean, Proof/Piece.lean,
  Proof/Blocks.lean); the reference by one fold over the flat tap index k = 32·p + c of the stacked, flattened shifted
  views (Proof/RefValue.lean). A supremum does not depend on grouping or order, at the infinities either, so the
  precondition (finite inputs) is not used. The idealized kernel is the kernel's own text read over the extended reals:
  no operation was rewritten, and that claim is trivial.
-/
import proofs.«124420_j70489003262695_2_alg».proof.Defs
import proofs.«124420_j70489003262695_2_alg».proof.Proof.Gen.Kernel
import proofs.«124420_j70489003262695_2_alg».proof.Proof.Gen.Kernel.Skeleton
import proofs.«124420_j70489003262695_2_alg».proof.Proof.Gen.Kernel.Launch
import proofs.«124420_j70489003262695_2_alg».proof.Proof.Gen.Kernel.Points
import proofs.«124420_j70489003262695_2_alg».proof.Proof.Gen.Kernel.Frame
import proofs.«124420_j70489003262695_2_alg».proof.Proof.Gen.KernelIdeal
import proofs.«124420_j70489003262695_2_alg».proof.Proof.Gen.KernelIdeal.Skeleton
import proofs.«124420_j70489003262695_2_alg».proof.Proof.Gen.KernelIdeal.Launch
import proofs.«124420_j70489003262695_2_alg».proof.Proof.Gen.KernelIdeal.Points
import proofs.«124420_j70489003262695_2_alg».proof.Proof.Gen.KernelIdeal.Frame
import proofs.«124420_j70489003262695_2_alg».proof.Proof.Gen.ReferenceIdeal
import proofs.«124420_j70489003262695_2_alg».proof.Proof.Gen.KernelIdeal.Value
import proofs.«124420_j70489003262695_2_alg».proof.Proof.Gen.ReferenceIdeal.Run
import proofs.«124420_j70489003262695_2_alg».proof.Proof.Gen.ReferenceIdeal.Read
import proofs.«124420_j70489003262695_2_alg».proof.Proof.Gen.Pre_finite_inputs
import proofs.«124420_j70489003262695_2_alg».proof.Proof.Blocks
import proofs.«124420_j70489003262695_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals the kernel's result array ends at the specification of its arguments, and the reference's at the
    same function of arguments that agree. -/
theorem algebraic : Cert.algebraic_KernelIdeal_ReferenceIdeal := by
  intro m ρ m' ρ' _ hagree
  refine ⟨fun c => Cert.Trop.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v29_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
